-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x72 : Shape := ⟨2, ![262144, 72]⟩
abbrev S72x128 : Shape := ⟨2, ![72, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S512x512 : Shape := ⟨2, ![512, 512]⟩
abbrev S512x200 : Shape := ⟨2, ![512, 200]⟩
abbrev S200 : Shape := ⟨1, ![200]⟩
abbrev S200x72 : Shape := ⟨2, ![200, 72]⟩
abbrev S_ : Shape := ⟨0, ![]⟩

class Facts : Prop where
  bcast_S_S262144x72 : S_.BroadcastsInDim S262144x72 (![] : Fin 0 → Fin S262144x72.rank)
  reducesTo_S262144x72_S_d0_1 : S262144x72.ReducesTo [0, 1] S_
  h_S_ : 0 < S_.numel
  bcast_S_S72x128 : S_.BroadcastsInDim S72x128 (![] : Fin 0 → Fin S72x128.rank)
  reducesTo_S72x128_S_d0_1 : S72x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x200 : S_.BroadcastsInDim S512x200 (![] : Fin 0 → Fin S512x200.rank)
  reducesTo_S512x200_S_d0_1 : S512x200.ReducesTo [0, 1] S_
  bcast_S_S200 : S_.BroadcastsInDim S200 (![] : Fin 0 → Fin S200.rank)
  reducesTo_S200_S_d0 : S200.ReducesTo [0] S_
  bcast_S_S200x72 : S_.BroadcastsInDim S200x72 (![] : Fin 0 → Fin S200x72.rank)
  reducesTo_S200x72_S_d0_1 : S200x72.ReducesTo [0, 1] S_

variable [Facts]

def fn_part4 {F : FTy → Type} [FloatOps F] (main_arg14 : FVec F S200 .f32) (main_arg15 : FVec F S200x72 .f32) (main_v63 : IVec S_ 1) (main_v67 : IVec S_ 1) : IVec S_ 1 :=
  let main_v68 : IVec S_ 1 := andi main_v63 main_v67
  let main_v69 : FVec F S200 .f32 := Host.absf main_arg14
  let main_cst_26 : FVec F S_ .f32 := constant S_ .f32 0x7F800000#32
  let main_v70 : FVec F S200 .f32 := broadcastInDim S200 ![] bcast_S_S200 main_cst_26
  let main_v71 : IVec S200 1 := cmpf .olt main_v69 main_v70
  let main_c_27 : IVec S_ 1 := constantI S_ 1 1#1
  let main_v72 : IVec S_ 1 := (fun x v => Host.reduce IntOp.andi x v reducesTo_S200_S_d0 h_S_) main_v71 main_c_27
  let main_v73 : IVec S_ 1 := andi main_v68 main_v72
  let main_v74 : FVec F S200x72 .f32 := Host.absf main_arg15
  let main_cst_28 : FVec F S_ .f32 := constant S_ .f32 0x7F800000#32
  let main_v75 : FVec F S200x72 .f32 := broadcastInDim S200x72 ![] bcast_S_S200x72 main_cst_28
  let main_v76 : IVec S200x72 1 := cmpf .olt main_v74 main_v75
  let main_c_29 : IVec S_ 1 := constantI S_ 1 1#1
  let main_v77 : IVec S_ 1 := (fun x v => Host.reduce IntOp.andi x v reducesTo_S200x72_S_d0_1 h_S_) main_v76 main_c_29
  let main_v78 : IVec S_ 1 := andi main_v73 main_v77
  main_v78

def fn_part3 {F : FTy → Type} [FloatOps F] (main_arg11 : FVec F S512x512 .f32) (main_arg12 : FVec F S512 .f32) (main_arg13 : FVec F S512x200 .f32) (main_arg14 : FVec F S200 .f32) (main_arg15 : FVec F S200x72 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x200 .f32 := Host.absf main_arg13
  let main_cst_24 : FVec F S_ .f32 := constant S_ .f32 0x7F800000#32
  let main_v65 : FVec F S512x200 .f32 := broadcastInDim S512x200 ![] bcast_S_S512x200 main_cst_24
  let main_v66 : IVec S512x200 1 := cmpf .olt main_v64 main_v65
  let main_c_25 : IVec S_ 1 := constantI S_ 1 1#1
  let main_v67 : IVec S_ 1 := (fun x v => Host.reduce IntOp.andi x v reducesTo_S512x200_S_d0_1 h_S_) main_v66 main_c_25
  fn_part4 (F := F) main_arg14 main_arg15 main_v63 main_v67

def fn_part2 {F : FTy → Type} [FloatOps F] (main_arg7 : FVec F S256x512 .f32) (main_arg8 : FVec F S512 .f32) (main_arg9 : FVec F S512x512 .f32) (main_arg10 : FVec F S512 .f32) (main_arg11 : FVec F S512x512 .f32) (main_arg12 : FVec F S512 .f32) (main_arg13 : FVec F S512x200 .f32) (main_arg14 : FVec F S200 .f32) (main_arg15 : FVec F S200x72 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_v48 main_v49 main_v50

def fn_part1 {F : FTy → Type} [FloatOps F] (main_arg4 : FVec F S256 .f32) (main_arg5 : FVec F S256x256 .f32) (main_arg6 : FVec F S256 .f32) (main_arg7 : FVec F S256x512 .f32) (main_arg8 : FVec F S512 .f32) (main_arg9 : FVec F S512x512 .f32) (main_arg10 : FVec F S512 .f32) (main_arg11 : FVec F S512x512 .f32) (main_arg12 : FVec F S512 .f32) (main_arg13 : FVec F S512x200 .f32) (main_arg14 : FVec F S200 .f32) (main_arg15 : FVec F S200x72 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S262144x72 .f32) (main_arg1 : FVec F S72x128 .f32) (main_arg2 : FVec F S128 .f32) (main_arg3 : FVec F S128x256 .f32) (main_arg4 : FVec F S256 .f32) (main_arg5 : FVec F S256x256 .f32) (main_arg6 : FVec F S256 .f32) (main_arg7 : FVec F S256x512 .f32) (main_arg8 : FVec F S512 .f32) (main_arg9 : FVec F S512x512 .f32) (main_arg10 : FVec F S512 .f32) (main_arg11 : FVec F S512x512 .f32) (main_arg12 : FVec F S512 .f32) (main_arg13 : FVec F S512x200 .f32) (main_arg14 : FVec F S200 .f32) (main_arg15 : FVec F S200x72 .f32) : IVec S_ 1 :=
  let main_v0 : FVec F S262144x72 .f32 := Host.absf main_arg0
  let main_cst : FVec F S_ .f32 := constant S_ .f32 0x7F800000#32
  let main_v1 : FVec F S262144x72 .f32 := broadcastInDim S262144x72 ![] bcast_S_S262144x72 main_cst
  let main_v2 : IVec S262144x72 1 := cmpf .olt main_v0 main_v1
  let main_c : IVec S_ 1 := constantI S_ 1 1#1
  let main_v3 : IVec S_ 1 := (fun x v => Host.reduce IntOp.andi x v reducesTo_S262144x72_S_d0_1 h_S_) main_v2 main_c
  let main_v4 : FVec F S72x128 .f32 := Host.absf main_arg1
  let main_cst_0 : FVec F S_ .f32 := constant S_ .f32 0x7F800000#32
  let main_v5 : FVec F S72x128 .f32 := broadcastInDim S72x128 ![] bcast_S_S72x128 main_cst_0
  let main_v6 : IVec S72x128 1 := cmpf .olt main_v4 main_v5
  let main_c_1 : IVec S_ 1 := constantI S_ 1 1#1
  let main_v7 : IVec S_ 1 := (fun x v => Host.reduce IntOp.andi x v reducesTo_S72x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S262144x72 : Shape := ⟨2, ![262144, 72]⟩
abbrev S72x128 : Shape := ⟨2, ![72, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S512x512 : Shape := ⟨2, ![512, 512]⟩
abbrev S512x200 : Shape := ⟨2, ![512, 200]⟩
abbrev S200 : Shape := ⟨1, ![200]⟩
abbrev S200x72 : Shape := ⟨2, ![200, 72]⟩
abbrev S1x128 : Shape := ⟨2, ![1, 128]⟩
abbrev S1x256 : Shape := ⟨2, ![1, 256]⟩
abbrev S1x512 : Shape := ⟨2, ![1, 512]⟩
abbrev S1x200 : Shape := ⟨2, ![1, 200]⟩
abbrev S_ : Shape := ⟨0, ![]⟩
abbrev S72 : Shape := ⟨1, ![72]⟩
abbrev S1x72 : Shape := ⟨2, ![1, 72]⟩
abbrev S16384x72 : Shape := ⟨2, ![16384, 72]⟩
abbrev S1024x72 : Shape := ⟨2, ![1024, 72]⟩
abbrev S1024x128 : Shape := ⟨2, ![1024, 128]⟩
abbrev S1024x256 : Shape := ⟨2, ![1024, 256]⟩
abbrev S1024x512 : Shape := ⟨2, ![1024, 512]⟩
abbrev S1024x200 : Shape := ⟨2, ![1024, 200]⟩
abbrev S1024 : Shape := ⟨1, ![1024]⟩
abbrev S1024x1 : Shape := ⟨2, ![1024, 1]⟩

abbrev nBuf : Space → Nat
  | .hbm => 37
  | .vmem => 20
  | .smem => 0
  | _ => 0

abbrev bufTy : (tb : Table) → Fin (tcTables nBuf tb) → BufTy
  | .hbm, ⟨0, _⟩ => ⟨S262144x72, .f32⟩
  | .hbm, ⟨1, _⟩ => ⟨S72x128, .f32⟩
  | .hbm, ⟨2, _⟩ => ⟨S128, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x200, .f32⟩
  | .hbm, ⟨14, _⟩ => ⟨S200, .f32⟩
  | .hbm, ⟨15, _⟩ => ⟨S200x72, .f32⟩
  | .hbm, ⟨16, _⟩ => ⟨S262144x72, .bf16⟩
  | .hbm, ⟨17, _⟩ => ⟨S72x128, .bf16⟩
  | .hbm, ⟨18, _⟩ => ⟨S128x256, .bf16⟩
  | .hbm, ⟨19, _⟩ => ⟨S256x256, .bf16⟩
  | .hbm, ⟨20, _⟩ => ⟨S256x512, .bf16⟩
  | .hbm, ⟨21, _⟩ => ⟨S512x512, .bf16⟩
  | .hbm, ⟨22, _⟩ => ⟨S512x512, .bf16⟩
  | .hbm, ⟨23, _⟩ => ⟨S512x200, .bf16⟩
  | .hbm, ⟨24, _⟩ => ⟨S200x72, .bf16⟩
  | .hbm, ⟨25, _⟩ => ⟨S1x128, .f32⟩
  | .hbm, ⟨26, _⟩ => ⟨S1x256, .f32⟩
  | .hbm, ⟨27, _⟩ => ⟨S1x256, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x200, .f32⟩
  | .hbm, ⟨32, _⟩ => ⟨S200x72, .f32⟩
  | .hbm, ⟨33, _⟩ => ⟨S_, .f32⟩
  | .hbm, ⟨34, _⟩ => ⟨S72, .f32⟩
  | .hbm, ⟨35, _⟩ => ⟨S1x72, .f32⟩
  | .hbm, ⟨36, _⟩ => ⟨S262144x72, .f32⟩
  | .local _ .vmem, ⟨0, _⟩ => ⟨S16384x72, .bf16⟩
  | .local _ .vmem, ⟨1, _⟩ => ⟨S16384x72, .bf16⟩
  | .local _ .vmem, ⟨2, _⟩ => ⟨S72x128, .bf16⟩
  | .local _ .vmem, ⟨3, _⟩ => ⟨S1x128, .f32⟩
  | .local _ .vmem, ⟨4, _⟩ => ⟨S128x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S256x512, .bf16⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S512x200, .bf16⟩
  | .local _ .vmem, ⟨15, _⟩ => ⟨S1x200, .f32⟩
  | .local _ .vmem, ⟨16, _⟩ => ⟨S200x72, .bf16⟩
  | .local _ .vmem, ⟨17, _⟩ => ⟨S1x72, .f32⟩
  | .local _ .vmem, ⟨18, _⟩ => ⟨S16384x72, .f32⟩
  | .local _ .vmem, ⟨19, _⟩ => ⟨S16384x72, .f32⟩
  | _, _ => ⟨S262144x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c1024_i32 : BitVec 32 := 1024#32
  let v1 : BitVec 32 := Scalar.muli arg19 c1024_i32
  v1
def k0_off1 (k0_t1 : Fin k0_t1_loop.trips) : Fin 2 → Nat :=
  let c0_i32 : BitVec 32 := 0#32
  let c1_i32 : BitVec 32 := 1#32
  let arg19 : BitVec 32 := Scf.iv c0_i32 c1_i32 k0_t1
  let c1024_i32 : BitVec 32 := 1024#32
  let v1 : BitVec 32 := Scalar.muli arg19 c1024_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x72 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S72x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x200 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x200 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S200x72 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x72 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S16384x72 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bitsLt_bf16_f32 : FTy.bits .bf16 < FTy.bits .f32
  shapeCasts_S128_S1x128 : S128.ShapeCasts S1x128
  shapeCasts_S256_S1x256 : S256.ShapeCasts S1x256
  shapeCasts_S512_S1x512 : S512.ShapeCasts S1x512
  shapeCasts_S200_S1x200 : S200.ShapeCasts S1x200
  reducesTo_S200x72_S72_d0 : S200x72.ReducesTo [0] S72
  h_S_ : 0 < S_.numel
  bcast_S72_S1x72_1 : S72.BroadcastsInDim S1x72 (![1] : Fin 1 → Fin S1x72.rank)
  h_S1024x72 : 0 < S1024x72.numel
  shapeCasts_S1024x72_S1024x72 : S1024x72.ShapeCasts S1024x72
  inb_S72x128_S72x128_0_0 : ∀ a, (![0, 0] : Fin 2 → Nat) a + S72x128.size a ≤ S72x128.size a
  h_S72x128 : 0 < S72x128.numel
  shapeCasts_S72x128_S72x128 : S72x128.ShapeCasts S72x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x200_S512x200_0_0 : ∀ a, (![0, 0] : Fin 2 → Nat) a + S512x200.size a ≤ S512x200.size a
  h_S512x200 : 0 < S512x200.numel
  shapeCasts_S512x200_S512x200 : S512x200.ShapeCasts S512x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S1024x200 : S1x200.Broadcasts S1024x200
  reduces_S1024x200_S1024 : S1024x200.Reduces [1] S1024
  shapeCasts_S1024_S1024x1 : S1024.ShapeCasts S1024x1
  inb_S200x72_S200x72_0_0 : ∀ a, (![0, 0] : Fin 2 → Nat) a + S200x72.size a ≤ S200x72.size a
  h_S200x72 : 0 < S200x72.numel
  shapeCasts_S200x72_S200x72 : S200x72.ShapeCasts S200x72
  broadcasts_S1024x1_S1024x72 : S1024x1.Broadcasts S1024x72
  inb_S1x72_S1x72_0_0 : ∀ a, (![0, 0] : Fin 2 → Nat) a + S1x72.size a ≤ S1x72.size a
  h_S1x72 : 0 < S1x72.numel
  shapeCasts_S1x72_S1x72 : S1x72.ShapeCasts S1x72
  broadcasts_S1x72_S1024x72 : S1x72.Broadcasts S1024x72
  reduces_S1024x72_S1024 : S1024x72.Reduces [1] S1024
  dot_S1024x72_S72x128_S1024x128_1_0_0_1_n_n_wf : DotDims.WF S1024x72 S72x128 S1024x128 [1] [0] [0] [1] [] []
  dot_S1024x128_S128x256_S1024x256_1_0_0_1_n_n_wf : DotDims.WF S1024x128 S128x256 S1024x256 [1] [0] [0] [1] [] []
  dot_S1024x256_S256x256_S1024x256_1_0_0_1_n_n_wf : DotDims.WF S1024x256 S256x256 S1024x256 [1] [0] [0] [1] [] []
  dot_S1024x256_S256x512_S1024x512_1_0_0_1_n_n_wf : DotDims.WF S1024x256 S256x512 S1024x512 [1] [0] [0] [1] [] []
  dot_S1024x512_S512x512_S1024x512_1_0_0_1_n_n_wf : DotDims.WF S1024x512 S512x512 S1024x512 [1] [0] [0] [1] [] []
  dot_S1024x512_S512x200_S1024x200_1_0_0_1_n_n_wf : DotDims.WF S1024x512 S512x200 S1024x200 [1] [0] [0] [1] [] []
  dot_S1024x200_S200x72_S1024x72_1_0_0_1_n_n_wf : DotDims.WF S1024x200 S200x72 S1024x72 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x72.size a ≤ S16384x72.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x72.size a ≤ S262144x72.size a
  hwx0_0 : ∀ i : grid0.Coords, EltTy.bits .bf16 = 32 ∨ (Rect.block (s := S262144x72) S16384x72.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S72x128.size a ≤ S72x128.size a
  hwx0_1 : ∀ i : grid0.Coords, EltTy.bits .bf16 = 32 ∨ (Rect.block (s := S72x128) S72x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .bf16 = 32 ∨ (Rect.block (s := S256x512) S256x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .bf16 = 32 ∨ (Rect.block (s := S512x512) S512x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x200.size a ≤ S512x200.size a
  hwx0_13 : ∀ i : grid0.Coords, EltTy.bits .bf16 = 32 ∨ (Rect.block (s := S512x200) S512x200.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x200.size a ≤ S1x200.size a
  hwx0_14 : ∀ i : grid0.Coords, EltTy.bits .f32 = 32 ∨ (Rect.block (s := S1x200) S1x200.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S200x72.size a ≤ S200x72.size a
  hwx0_15 : ∀ i : grid0.Coords, EltTy.bits .bf16 = 32 ∨ (Rect.block (s := S200x72) S200x72.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x72.size a ≤ S1x72.size a
  hwx0_16 : ∀ i : grid0.Coords, EltTy.bits .f32 = 32 ∨ (Rect.block (s := S1x72) S1x72.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S16384x72.size a ≤ S262144x72.size a
  hwx0_17 : ∀ i : grid0.Coords, EltTy.bits .f32 = 32 ∨ (Rect.block (s := S262144x72) S16384x72.size (cc0_transform_17 i) (hinb0_17 i)).WholeWords (EltTy.packing .f32)

variable [Facts₀]

def dot_S1024x72_S72x128_S1024x128_1_0_0_1_n_n : DotDims S1024x72 S72x128 S1024x128 where
  lhsContracting := [1]
  rhsContracting := [0]
  lhsNonContracting := [0]
  rhsNonContracting := [1]
  lhsBatch := []
  rhsBatch := []
  wf := dot_S1024x72_S72x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x200_S1024x200_1_0_0_1_n_n : DotDims S1024x512 S512x200 S1024x200 where
  lhsContracting := [1]
  rhsContracting := [0]
  lhsNonContracting := [0]
  rhsNonContracting := [1]
  lhsBatch := []
  rhsBatch := []
  wf := dot_S1024x512_S512x200_S1024x200_1_0_0_1_n_n_wf
def dot_S1024x200_S200x72_S1024x72_1_0_0_1_n_n : DotDims S1024x200 S200x72 S1024x72 where
  lhsContracting := [1]
  rhsContracting := [0]
  lhsNonContracting := [0]
  rhsNonContracting := [1]
  lhsBatch := []
  rhsBatch := []
  wf := dot_S1024x200_S200x72_S1024x72_1_0_0_1_n_n_wf

abbrev win0_0 : Pipeline.Window sig grid0 :=
  Pipeline.Window.ofSpec (Memref.whole main_v0) S16384x72.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S72x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S512x200.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15) S1x200.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8) S200x72.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v18) S1x72.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v19) S16384x72.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S262144x72 : Shape := ⟨2, ![262144, 72]⟩
abbrev S72x128 : Shape := ⟨2, ![72, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S512x512 : Shape := ⟨2, ![512, 512]⟩
abbrev S512x200 : Shape := ⟨2, ![512, 200]⟩
abbrev S200 : Shape := ⟨1, ![200]⟩
abbrev S200x72 : Shape := ⟨2, ![200, 72]⟩
abbrev S262144x128 : Shape := ⟨2, ![262144, 128]⟩
abbrev S1x128 : Shape := ⟨2, ![1, 128]⟩
abbrev S262144x256 : Shape := ⟨2, ![262144, 256]⟩
abbrev S1x256 : Shape := ⟨2, ![1, 256]⟩
abbrev S_ : Shape := ⟨0, ![]⟩
abbrev S262144x512 : Shape := ⟨2, ![262144, 512]⟩
abbrev S1x512 : Shape := ⟨2, ![1, 512]⟩
abbrev S262144x200 : Shape := ⟨2, ![262144, 200]⟩
abbrev S1x200 : Shape := ⟨2, ![1, 200]⟩
abbrev S262144 : Shape := ⟨1, ![262144]⟩
abbrev S262144x1 : Shape := ⟨2, ![262144, 1]⟩
abbrev S72 : Shape := ⟨1, ![72]⟩
abbrev S1x72 : Shape := ⟨2, ![1, 72]⟩

abbrev nBuf : Space → Nat
  | .hbm => 80
  | .vmem => 0
  | .smem => 0
  | _ => 0

abbrev bufTy : (tb : Table) → Fin (tcTables nBuf tb) → BufTy
  | .hbm, ⟨0, _⟩ => ⟨S262144x72, .f32⟩
  | .hbm, ⟨1, _⟩ => ⟨S72x128, .f32⟩
  | .hbm, ⟨2, _⟩ => ⟨S128, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x200, .f32⟩
  | .hbm, ⟨14, _⟩ => ⟨S200, .f32⟩
  | .hbm, ⟨15, _⟩ => ⟨S200x72, .f32⟩
  | .hbm, ⟨16, _⟩ => ⟨S262144x128, .f32⟩
  | .hbm, ⟨17, _⟩ => ⟨S1x128, .f32⟩
  | .hbm, ⟨18, _⟩ => ⟨S262144x128, .f32⟩
  | .hbm, ⟨19, _⟩ => ⟨S262144x128, .f32⟩
  | .hbm, ⟨20, _⟩ => ⟨S262144x256, .f32⟩
  | .hbm, ⟨21, _⟩ => ⟨S1x256, .f32⟩
  | .hbm, ⟨22, _⟩ => ⟨S262144x256, .f32⟩
  | .hbm, ⟨23, _⟩ => ⟨S262144x256, .f32⟩
  | .hbm, ⟨24, _⟩ => ⟨S_, .f32⟩
  | .hbm, ⟨25, _⟩ => ⟨S262144x256, .f32⟩
  | .hbm, ⟨26, _⟩ => ⟨S262144x256, .f32⟩
  | .hbm, ⟨27, _⟩ => ⟨S262144x256, .f32⟩
  | .hbm, ⟨28, _⟩ => ⟨S1x256, .f32⟩
  | .hbm, ⟨29, _⟩ => ⟨S262144x256, .f32⟩
  | .hbm, ⟨30, _⟩ => ⟨S262144x256, .f32⟩
  | .hbm, ⟨31, _⟩ => ⟨S262144x512, .f32⟩
  | .hbm, ⟨32, _⟩ => ⟨S1x512, .f32⟩
  | .hbm, ⟨33, _⟩ => ⟨S262144x512, .f32⟩
  | .hbm, ⟨34, _⟩ => ⟨S262144x512, .f32⟩
  | .hbm, ⟨35, _⟩ => ⟨S_, .f32⟩
  | .hbm, ⟨36, _⟩ => ⟨S262144x512, .f32⟩
  | .hbm, ⟨37, _⟩ => ⟨S262144x512, .f32⟩
  | .hbm, ⟨38, _⟩ => ⟨S262144x512, .f32⟩
  | .hbm, ⟨39, _⟩ => ⟨S1x512, .f32⟩
  | .hbm, ⟨40, _⟩ => ⟨S262144x512, .f32⟩
  | .hbm, ⟨41, _⟩ => ⟨S262144x512, .f32⟩
  | .hbm, ⟨42, _⟩ => ⟨S262144x512, .f32⟩
  | .hbm, ⟨43, _⟩ => ⟨S1x512, .f32⟩
  | .hbm, ⟨44, _⟩ => ⟨S262144x512, .f32⟩
  | .hbm, ⟨45, _⟩ => ⟨S262144x512, .f32⟩
  | .hbm, ⟨46, _⟩ => ⟨S262144x200, .f32⟩
  | .hbm, ⟨47, _⟩ => ⟨S1x200, .f32⟩
  | .hbm, ⟨48, _⟩ => ⟨S262144x200, .f32⟩
  | .hbm, ⟨49, _⟩ => ⟨S262144x200, .f32⟩
  | .hbm, ⟨50, _⟩ => ⟨S262144x200, .f32⟩
  | .hbm, ⟨51, _⟩ => ⟨S_, .f32⟩
  | .hbm, ⟨52, _⟩ => ⟨S262144, .f32⟩
  | .hbm, ⟨53, _⟩ => ⟨S262144x1, .f32⟩
  | .hbm, ⟨54, _⟩ => ⟨S262144x72, .f32⟩
  | .hbm, ⟨55, _⟩ => ⟨S200x72, .f32⟩
  | .hbm, ⟨56, _⟩ => ⟨S_, .f32⟩
  | .hbm, ⟨57, _⟩ => ⟨S72, .f32⟩
  | .hbm, ⟨58, _⟩ => ⟨S_, .f32⟩
  | .hbm, ⟨59, _⟩ => ⟨S262144x72, .f32⟩
  | .hbm, ⟨60, _⟩ => ⟨S262144x72, .f32⟩
  | .hbm, ⟨61, _⟩ => ⟨S262144x72, .f32⟩
  | .hbm, ⟨62, _⟩ => ⟨S262144x72, .f32⟩
  | .hbm, ⟨63, _⟩ => ⟨S1x72, .f32⟩
  | .hbm, ⟨64, _⟩ => ⟨S262144x72, .f32⟩
  | .hbm, ⟨65, _⟩ => ⟨S262144x72, .f32⟩
  | .hbm, ⟨66, _⟩ => ⟨S_, .f32⟩
  | .hbm, ⟨67, _⟩ => ⟨S262144x72, .f32⟩
  | .hbm, ⟨68, _⟩ => ⟨S262144x72, .f32⟩
  | .hbm, ⟨69, _⟩ => ⟨S_, .f32⟩
  | .hbm, ⟨70, _⟩ => ⟨S262144x72, .f32⟩
  | .hbm, ⟨71, _⟩ => ⟨S262144x72, .f32⟩
  | .hbm, ⟨72, _⟩ => ⟨S_, .f32⟩
  | .hbm, ⟨73, _⟩ => ⟨S262144x72, .f32⟩
  | .hbm, ⟨74, _⟩ => ⟨S262144x72, .f32⟩
  | .hbm, ⟨75, _⟩ => ⟨S_, .f32⟩
  | .hbm, ⟨76, _⟩ => ⟨S262144, .f32⟩
  | .hbm, ⟨77, _⟩ => ⟨S262144x1, .f32⟩
  | .hbm, ⟨78, _⟩ => ⟨S262144x72, .f32⟩
  | .hbm, ⟨79, _⟩ => ⟨S262144x72, .f32⟩
  | _, _ => ⟨S262144x72, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_cst : Ref sig .tc := ⟨.hbm, 24, rfl⟩
abbrev main_call0_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_cst : Ref sig .tc := ⟨.hbm, 35, rfl⟩
abbrev main_call1_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_0 : Ref sig .tc := ⟨.hbm, 56, rfl⟩
abbrev main_v35 : Ref sig .tc := ⟨.hbm, 57, rfl⟩
abbrev main_cst_1 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_2 : Ref sig .tc := ⟨.hbm, 66, rfl⟩
abbrev main_v43 : Ref sig .tc := ⟨.hbm, 67, rfl⟩
abbrev main_v44 : Ref sig .tc := ⟨.hbm, 68, rfl⟩
abbrev main_cst_3 : Ref sig .tc := ⟨.hbm, 69, rfl⟩
abbrev main_v45 : Ref sig .tc := ⟨.hbm, 70, rfl⟩
abbrev main_v46 : Ref sig .tc := ⟨.hbm, 71, rfl⟩
abbrev main_cst_4 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  bcast_S200_S1x200_1 : S200.BroadcastsInDim S1x200 (![1] : Fin 1 → Fin S1x200.rank)
  bcast_S1x200_S262144x200_0_1 : S1x200.BroadcastsInDim S262144x200 (![0, 1] : Fin 2 → Fin S262144x200.rank)
  reducesTo_S262144x200_S262144_d1 : S262144x200.ReducesTo [1] S262144
  h_S_ : 0 < S_.numel
  bcast_S262144_S262144x1_0 : S262144.BroadcastsInDim S262144x1 (![0] : Fin 1 → Fin S262144x1.rank)
  reducesTo_S200x72_S72_d0 : S200x72.ReducesTo [0] S72
  bcast_S_S262144x72 : S_.BroadcastsInDim S262144x72 (![] : Fin 0 → Fin S262144x72.rank)
  bcast_S262144x1_S262144x72_0_1 : S262144x1.BroadcastsInDim S262144x72 (![0, 1] : Fin 2 → Fin S262144x72.rank)
  bcast_S72_S1x72_1 : S72.BroadcastsInDim S1x72 (![1] : Fin 1 → Fin S1x72.rank)
  bcast_S1x72_S262144x72_0_1 : S1x72.BroadcastsInDim S262144x72 (![0, 1] : Fin 2 → Fin S262144x72.rank)
  reducesTo_S262144x72_S262144_d1 : S262144x72.ReducesTo [1] S262144
  dot_S262144x72_S72x128_S262144x128_1_0_0_1_n_n_wf : DotDims.WF S262144x72 S72x128 S262144x128 [1] [0] [0] [1] [] []
  dot_S262144x128_S128x256_S262144x256_1_0_0_1_n_n_wf : DotDims.WF S262144x128 S128x256 S262144x256 [1] [0] [0] [1] [] []
  dot_S262144x256_S256x256_S262144x256_1_0_0_1_n_n_wf : DotDims.WF S262144x256 S256x256 S262144x256 [1] [0] [0] [1] [] []
  dot_S262144x256_S256x512_S262144x512_1_0_0_1_n_n_wf : DotDims.WF S262144x256 S256x512 S262144x512 [1] [0] [0] [1] [] []
  dot_S262144x512_S512x512_S262144x512_1_0_0_1_n_n_wf : DotDims.WF S262144x512 S512x512 S262144x512 [1] [0] [0] [1] [] []
  dot_S262144x512_S512x200_S262144x200_1_0_0_1_n_n_wf : DotDims.WF S262144x512 S512x200 S262144x200 [1] [0] [0] [1] [] []
  dot_S262144x200_S200x72_S262144x72_1_0_0_1_n_n_wf : DotDims.WF S262144x200 S200x72 S262144x72 [1] [0] [0] [1] [] []

variable [Facts₀]

def dot_S262144x72_S72x128_S262144x128_1_0_0_1_n_n : DotDims S262144x72 S72x128 S262144x128 where
  lhsContracting := [1]
  rhsContracting := [0]
  lhsNonContracting := [0]
  rhsNonContracting := [1]
  lhsBatch := []
  rhsBatch := []
  wf := dot_S262144x72_S72x128_S262144x128_1_0_0_1_n_n_wf
def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x512_S262144x512_1_0_0_1_n_n : DotDims S262144x256 S256x512 S262144x512 where
  lhsContracting := [1]
  rhsContracting := [0]
  lhsNonContracting := [0]
  rhsNonContracting := [1]
  lhsBatch := []
  rhsBatch := []
  wf := dot_S262144x256_S256x512_S262144x512_1_0_0_1_n_n_wf
def dot_S262144x512_S512x512_S262144x512_1_0_0_1_n_n : DotDims S262144x512 S512x512 S262144x512 where
  lhsContracting := [1]
  rhsContracting := [0]
  lhsNonContracting := [0]
  rhsNonContracting := [1]
  lhsBatch := []
  rhsBatch := []
  wf := dot_S262144x512_S512x512_S262144x512_1_0_0_1_n_n_wf
def dot_S262144x512_S512x200_S262144x200_1_0_0_1_n_n : DotDims S262144x512 S512x200 S262144x200 where
  lhsContracting := [1]
  rhsContracting := [0]
  lhsNonContracting := [0]
  rhsNonContracting := [1]
  lhsBatch := []
  rhsBatch := []
  wf := dot_S262144x512_S512x200_S262144x200_1_0_0_1_n_n_wf
def dot_S262144x200_S200x72_S262144x72_1_0_0_1_n_n : DotDims S262144x200 S200x72 S262144x72 where
  lhsContracting := [1]
  rhsContracting := [0]
  lhsNonContracting := [0]
  rhsNonContracting := [1]
  lhsBatch := []
  rhsBatch := []
  wf := dot_S262144x200_S200x72_S262144x72_1_0_0_1_n_n_wf

class Facts : Prop extends Facts₀ where

variable [Facts]
-- ==== Proof.LibMatrixRows.lean ====
/-
  Matrices over the extended reals, by coordinates, for any extents.

  Four operations on matrices indexed as rank-2 arrays are:

      times A B      (p, c) ↦ Σ_k A (p, k) · B (k, c)        the matrix product
      scaleRows f X  (p, c) ↦ f (p, 0) · X (p, c)            diag(f) · X, for f a one-column matrix
      column x       (p, 0) ↦ x p                            a vector laid out as one column
      clampBelow z X (p, c) ↦ max (X (p, c)) z               every entry clamped below at z (the rectifier at z = 0)

  each read at an index by `rfl`, and `rows σ X`, the rows of X picked by a map σ of row numbers (a band of
  consecutive rows is σ r = base + r). A product's rows depend only on the same rows of its left factor:

      rows σ (times A B) = times (rows σ A) B,      rows σ (scaleRows f X) = scaleRows (rows σ f) (rows σ X),
      rows σ (clampBelow z X) = clampBelow z (rows σ X)

  all by `rfl`. This is what makes a product computed band by band (each grid point loading a band of rows of the
  left factor and the whole right factor) the product of the whole arrays. Sums and products are total on the
  extended reals, so nothing here needs a finiteness hypothesis.
-/
import Idealize.ShloMosaic.Lib.ValueIdx
import Idealize.ShloMosaic.PureOps.Ideal.Laws

noncomputable section

namespace Cert.LibMatrixRows

open Idealize.ShloMosaic Idealize.ShloMosaic.ValueIdx
open scoped BigOperators

/-- An a × b matrix of extended reals, indexed as a rank-2 array is. -/
abbrev Mat (a b : ℕ) : Type := (⟨2, ![a, b]⟩ : Shape).Idx → EReal

/-- A vector of a extended reals, indexed as a rank-1 array is. -/
abbrev Vect (a : ℕ) : Type := (⟨1, ![a]⟩ : Shape).Idx → EReal

variable {M K N P : ℕ}

/-- The matrix product. -/
def times (A : Mat M K) (B : Mat K N) : Mat M N := fun i => ∑ k : Fin K, A (ix2 (i 0) k) * B (ix2 k (i 1))

/-- Row p of X multiplied by the entry p of a one-column matrix: diag(f) · X. -/
def scaleRows (f : Mat M 1) (X : Mat M N) : Mat M N := fun i => f (ix2 (i 0) (0 : Fin 1)) * X i

/-- A vector as a one-column matrix. -/
def column (x : Vect M) : Mat M 1 := fun i => x (ix1 (i 0))

/-- Every entry replaced by the larger of itself and z. -/
def clampBelow (z : EReal) (X : Mat M N) : Mat M N := fun i => max (X i) z

theorem times_apply (A : Mat M K) (B : Mat K N) (p : Fin M) (c : Fin N) :
    times A B (ix2 p c) = ∑ k : Fin K, A (ix2 p k) * B (ix2 k c) := rfl

theorem scaleRows_apply (f : Mat M 1) (X : Mat M N) (p : Fin M) (c : Fin N) :
    scaleRows f X (ix2 p c) = f (ix2 p (0 : Fin 1)) * X (ix2 p c) := rfl

theorem column_apply (x : Vect M) (p : Fin M) (u : Fin 1) : column x (ix2 p u) = x (ix1 p) := rfl

theorem clampBelow_apply (z : EReal) (X : Mat M N) (p : Fin M) (c : Fin N) :
    clampBelow z X (ix2 p c) = max (X (ix2 p c)) z := rfl

/-! ## Rows of a product

Row p of A · B is row p of A times B: cutting a band of rows out of the left factor and multiplying is cutting
the same band out of the product. The band is given by a map of row numbers. -/

/-- The rows of a matrix picked by a map of row numbers. -/
def rows (σ : Fin M → Fin P) (X : Mat P N) : Mat M N := fun i => X (ix2 (σ (i 0)) (i 1))

theorem rows_apply (σ : Fin M → Fin P) (X : Mat P N) (p : Fin M) (c : Fin N) : rows σ X (ix2 p c) = X (ix2 (σ p) c) := rfl

theorem rows_times (σ : Fin M → Fin P) (A : Mat P K) (B : Mat K N) : rows σ (times A B) = times (rows σ A) B := rfl

theorem rows_scaleRows (σ : Fin M → Fin P) (f : Mat P 1) (X : Mat P N) :
    rows σ (scaleRows f X) = scaleRows (rows σ f) (rows σ X) := rfl

theorem rows_clampBelow (σ : Fin M → Fin P) (z : EReal) (X : Mat P N) :
    rows σ (clampBelow z X) = clampBelow z (rows σ X) := rfl

end Cert.LibMatrixRows

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibHostStack.lean ====
/-
  Stacks of matrices on the host, read at an index by coordinates, for any extents.

  A rank-3 array [K, a, b] is a stack of K matrices. Three layout steps move between the stack and its matrices:
  cutting slab k out of the stack and dropping the unit axis ([K, a, b] → [1, a, b] → [a, b]) reads the stack at
  (k, n, d); laying a matrix out as a stack of one ([a, b] → [1, a, b]) reads the matrix at (n, d) whatever the unit
  coordinate; joining four stacks of one along the leading axis reads piece k. At the exact instance the host's
  matrix product of an M × K by a K × N operand is the textbook sum over the K products.
-/
import Idealize.ShloMosaic.Lib.ValueIdx
import Idealize.ShloMosaic.Lib.ValueLayout
import Idealize.ShloMosaic.Lib.Pipeline.Value
import Idealize.ShloMosaic.Lib.KernelVsHost
import proofs.«153382_j28217935134950_2_alg».proof.Proof.LibMatmul2d

noncomputable section

namespace Cert.LibHostStack

open Idealize.ShloMosaic Idealize.ShloMosaic.ValueIdx
open scoped BigOperators

variable {α : Type}

/-- Slab `k` of a stack, as a matrix: the slice of extent one at offset `k` along the leading axis, its unit axis
    dropped, reads at (n, d) the stack at (k, n, d). -/
theorem slab_apply {K a b : ℕ} (o : ℕ) (y : (⟨3, ![K, a, b]⟩ : Shape).Idx → α)
    (hs : (⟨3, ![K, a, b]⟩ : Shape).Slices ![o, 0, 0] ⟨3, ![1, a, b]⟩)
    (hc : (⟨3, ![1, a, b]⟩ : Shape).ShapeCasts ⟨2, ![a, b]⟩) (k : Fin K) (hk : k.val = o) (n : Fin a) (d : Fin b) :
    shapeCast ⟨2, ![a, b]⟩ (extractStridedSlice ⟨3, ![1, a, b]⟩ ![o, 0, 0] y hs) hc (ix2 n d) = y (ix3 k n d) := by
  refine (shapeCast_1ab_ab_apply _ hc n d).trans ?_
  refine extractStridedSlice_apply _ y hs _ _ fun ax => ?_
  match ax with
  | ⟨0, _⟩ => show k.val = o + 0; omega
  | ⟨1, _⟩ => show n.val = 0 + n.val; omega
  | ⟨2, _⟩ => show d.val = 0 + d.val; omega

/-- A matrix laid out as a stack of one reads, at (u, n, d), the matrix at (n, d). -/
theorem lift_apply {a b : ℕ} (z : (⟨2, ![a, b]⟩ : Shape).Idx → α)
    (h : (⟨2, ![a, b]⟩ : Shape).BroadcastsInDim ⟨3, ![1, a, b]⟩ (![1, 2] : Fin 2 → Fin 3)) (u : Fin 1) (n : Fin a) (d : Fin b) :
    broadcastInDim ⟨3, ![1, a, b]⟩ ![1, 2] h z (ix3 u n d) = z (ix2 n d) := by
  have hn := n.isLt
  have hd := d.isLt
  refine broadcastInDim_apply _ h z _ _ fun ax => ?_
  match ax with
  | ⟨0, _⟩ => show n.val = if a = 1 then 0 else n.val; split_ifs with h1 <;> omega
  | ⟨1, _⟩ => show d.val = if b = 1 then 0 else d.val; split_ifs with h1 <;> omega

/-- Four stacks of one joined along the leading axis read, at (k, n, d), piece `k` at (0, n, d). -/
theorem stack4_apply {a b : ℕ} (p0 p1 p2 p3 : (⟨3, ![1, a, b]⟩ : Shape).Idx → α)
    (h : Shape.Concatenates [(⟨3, ![1, a, b]⟩ : Shape), ⟨3, ![1, a, b]⟩, ⟨3, ![1, a, b]⟩, ⟨3, ![1, a, b]⟩] ⟨3, ![4, a, b]⟩ 0)
    (k : Fin 4) (n : Fin a) (d : Fin b) :
    concatenate ⟨3, ![4, a, b]⟩ 0 [⟨⟨3, ![1, a, b]⟩, p0⟩, ⟨⟨3, ![1, a, b]⟩, p1⟩, ⟨⟨3, ![1, a, b]⟩, p2⟩, ⟨⟨3, ![1, a, b]⟩, p3⟩] h (ix3 k n d)
      = (![p0, p1, p2, p3] k) (ix3 (0 : Fin 1) n d) :=
  concatenate_ofFn_unit_apply (t := ⟨3, ![4, a, b]⟩) (s₁ := ⟨3, ![1, a, b]⟩) (0 : Fin 3) (fun q : Fin 4 => ![p0, p1, p2, p3] q) h rfl rfl
    (ix3 k n d) k rfl (ix3 (0 : Fin 1) n d) (fun bx hb => by
      match bx with
      | ⟨0, _⟩ => exact absurd rfl hb
      | ⟨1, _⟩ => rfl
      | ⟨2, _⟩ => rfl)

/-- The host's product of an M × K by a K × N operand at the exact instance, at (i, j). -/
theorem dotGeneral_plain_apply {M K N : ℕ} {φ₁ φ₂ : FTy} (x : FVec Ideal ⟨2, ![M, K]⟩ φ₁) (y : FVec Ideal ⟨2, ![K, N]⟩ φ₂)
    (i : Fin M) (j : Fin N) :
    Host.dotGeneral (DotDims.plain M K N) none x y (ix2 i j) = ∑ k : Fin K, x (ix2 i k) * y (ix2 k j) := by
  rw [← matmul_zero_eq_dotGeneral]
  exact Cert.LibMatmul2d.matmul_plain_apply x y i j

end Cert.LibHostStack

end
-- ==== Proof.LibColumns.lean ====
/-
  Columns of a matrix, and a matrix assembled from columns, read at an index — for any extents and any element type.

  A column taken out of an `[a, n]` matrix as a one-column slice and flattened to a vector reads, at `i`, the matrix
  at `(i, column)`. A vector made a one-column matrix again (by a broadcast along a new trailing unit axis) reads the
  vector at the row. Twelve one-column matrices laid side by side read, at `(r, k)`, the `k`-th of them at row `r`.
  And a vector of per-column values laid as one row by a broadcast (`[b] → [1, b]`) and repeated down the rows by another
  (`[1, b] → [a, b]`) reads, at `(p, c)`, the vector at `c`.
-/
import Idealize.ShloMosaic.Lib.ValueLayout
import Idealize.ShloMosaic.Lib.Pipeline.Value

noncomputable section

namespace Cert.LibColumns

open Idealize.ShloMosaic Idealize.ShloMosaic.ValueIdx

variable {α : Type}

/-! ## One column in, one column out -/

/-- An `[a, 1]` array cast to `[a]` reads, at `i`, the operand's one column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `k` of an `[a, n]` matrix — the one-column slice at offset `o = k`, cast to a vector — reads, at `i`,
    the matrix at `(i, k)`. -/
theorem column_apply {a n : ℕ} (o : ℕ) (x : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (i : Fin a) (k : Fin n) (hk : k.val = o) :
    shapeCast ⟨1, ![a]⟩ (extractStridedSlice ⟨2, ![a, 1]⟩ ![0, o] x hs) hc (ix1 i) = x (ix2 i k) :=
  (shapeCast_a1_a_apply _ hc i).trans (slice2_axis1_apply o x hs i (0 : Fin 1) k (by show k.val = o + 0; omega))

/-- A vector `[a]` broadcast along a new trailing unit axis (`dims = [0]`) reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A row of per-column values over a matrix, the host's way -/

/-- A vector `[b]` laid as one row by a broadcast (`dims = [1]`) reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` repeated down `a` rows by a broadcast (`dims = [0, 1]`) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- Per-column values `x : [b]` laid as a row and repeated down the rows, both by broadcasts: `x c` everywhere in column `c`. -/
theorem perColumnHost_apply {a b : ℕ} (x : (⟨1, ![b]⟩ : Shape).Idx → α)
    (h₁ : (⟨1, ![b]⟩ : Shape).BroadcastsInDim ⟨2, ![1, b]⟩ (![1] : Fin 1 → Fin (⟨2, ![1, b]⟩ : Shape).rank))
    (h₂ : (⟨2, ![1, b]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h₂ (broadcastInDim ⟨2, ![1, b]⟩ ![1] h₁ x) (ix2 p c) = x (ix1 c) :=
  (broadcastInDim_1b_ab_apply _ h₂ p c).trans (broadcastInDim_b_1b_apply x h₁ 0 c)

/-! ## Twelve columns side by side -/

/-- Twelve one-column matrices concatenated along the column axis read, at `(r, k)`, the `k`-th of them at row `r`. -/
theorem stack12_apply {a : ℕ} (p0 p1 p2 p3 p4 p5 p6 p7 p8 p9 p10 p11 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩,
      ⟨2, ![a, 1]⟩, ⟨2, ![a, 1]⟩, ⟨2, ![a, 1]⟩, ⟨2, ![a, 1]⟩, ⟨2, ![a, 1]⟩, ⟨2, ![a, 1]⟩] ⟨2, ![a, 12]⟩ 1)
    (r : Fin a) (k : Fin 12) :
    concatenate ⟨2, ![a, 12]⟩ 1 [⟨⟨2, ![a, 1]⟩, p0⟩, ⟨⟨2, ![a, 1]⟩, p1⟩, ⟨⟨2, ![a, 1]⟩, p2⟩, ⟨⟨2, ![a, 1]⟩, p3⟩,
        ⟨⟨2, ![a, 1]⟩, p4⟩, ⟨⟨2, ![a, 1]⟩, p5⟩, ⟨⟨2, ![a, 1]⟩, p6⟩, ⟨⟨2, ![a, 1]⟩, p7⟩, ⟨⟨2, ![a, 1]⟩, p8⟩,
        ⟨⟨2, ![a, 1]⟩, p9⟩, ⟨⟨2, ![a, 1]⟩, p10⟩, ⟨⟨2, ![a, 1]⟩, p11⟩] h (ix2 r k)
      = (![p0, p1, p2, p3, p4, p5, p6, p7, p8, p9, p10, p11] : Fin 12 → (⟨2, ![a, 1]⟩ : Shape).Idx → α) k (ix2 r (0 : Fin 1)) := by
  refine concatenate_ofFn_unit_apply (t := ⟨2, ![a, 12]⟩) (s₁ := ⟨2, ![a, 1]⟩) (1 : Fin 2) (N := 12)
    (![p0, p1, p2, p3, p4, p5, p6, p7, p8, p9, p10, p11] : Fin 12 → (⟨2, ![a, 1]⟩ : Shape).Idx → α) h rfl rfl (ix2 r k) k rfl
    (ix2 r (0 : Fin 1)) fun b hb => ?_
  match b with
  | ⟨0, _⟩ => rfl
  | ⟨1, _⟩ => exact absurd rfl hb

/-- Twelve values listed, a function applied to the `k`-th of them: it is the `k`-th of the twelve results. -/
theorem vec12_map {β γ : Type} (g : β → γ) (a0 a1 a2 a3 a4 a5 a6 a7 a8 a9 a10 a11 : β)
    (m0 m1 m2 m3 m4 m5 m6 m7 m8 m9 m10 m11 : γ)
    (h0 : g a0 = m0) (h1 : g a1 = m1) (h2 : g a2 = m2) (h3 : g a3 = m3) (h4 : g a4 = m4) (h5 : g a5 = m5)
    (h6 : g a6 = m6) (h7 : g a7 = m7) (h8 : g a8 = m8) (h9 : g a9 = m9) (h10 : g a10 = m10) (h11 : g a11 = m11)
    (k : Fin 12) :
    g ((![a0, a1, a2, a3, a4, a5, a6, a7, a8, a9, a10, a11] : Fin 12 → β) k)
      = (![m0, m1, m2, m3, m4, m5, m6, m7, m8, m9, m10, m11] : Fin 12 → γ) k := by
  subst h0 h1 h2 h3 h4 h5 h6 h7 h8 h9 h10 h11
  fin_cases k <;> rfl

end Cert.LibColumns

end
-- ==== Proof.LibLinear.lean ====
/-
  A linear layer — a matrix product plus one bias row repeated down the rows — read at an index at the exact
  instance, for any extents, on the vector unit and on the host.

  * `vectorLinear_apply`: the vector unit's `h · W` into a zero accumulator plus a one-row bias broadcast down the rows,
    at `(p, q)`, is `∑ k, h(p, k) · W(k, q) + b(0, q)`.
  * `hostLinear_apply`: the host's `dot_general h W` plus a one-row bias broadcast down the rows (`dims = [0, 1]`), at
    `(p, q)`, is the same sum.
  * `row_eq_cast`: a vector laid as one row by a broadcast (`dims = [1]`) and the same vector reshaped to one row are
    one array.
-/
import Idealize.ShloMosaic.Lib.ValueIdx
import Idealize.ShloMosaic.Lib.ValueLayout
import Idealize.ShloMosaic.Lib.Pipeline.Value
import Idealize.ShloMosaic.PureOps.Ideal.Laws
import proofs.«153382_j28217935134950_2_alg».proof.Proof.LibMatmul2d
import proofs.«153382_j28217935134950_2_alg».proof.Proof.LibHostStack
import proofs.«153382_j28217935134950_2_alg».proof.Proof.LibColumns

noncomputable section

namespace Cert.LibLinear

open Idealize.ShloMosaic Idealize.ShloMosaic.ValueIdx
open scoped BigOperators

variable {n K N : ℕ}

/-- A linear layer on the vector unit, at `(p, q)`. -/
theorem vectorLinear_apply {φ₁ φ₂ : FTy} (h : FVec Ideal ⟨2, ![n, K]⟩ φ₁) (W : FVec Ideal ⟨2, ![K, N]⟩ φ₂)
    (b : FVec Ideal ⟨2, ![1, N]⟩ .f32) (hb : (⟨2, ![1, N]⟩ : Shape).Broadcasts ⟨2, ![n, N]⟩) (p : Fin n) (q : Fin N) :
    addf (matmul (DotDims.plain n K N) none h W (constant ⟨2, ![n, N]⟩ .f32 0x00000000#32)) (broadcastTo ⟨2, ![n, N]⟩ b hb) (ix2 p q)
      = ∑ k : Fin K, h (ix2 p k) * W (ix2 k q) + b (ix2 (0 : Fin 1) q) := by
  have h1 := Cert.LibMatmul2d.matmul_plain_apply h W p q
  have h2 := broadcastTo_1b_ab_apply b hb p q
  show FloatOps.matmul (DotDims.plain n K N) none h W (constant ⟨2, ![n, N]⟩ .f32 0x00000000#32) (ix2 p q)
      + broadcastTo ⟨2, ![n, N]⟩ b hb (ix2 p q) = _
  rw [h1, h2]

/-- A linear layer on the host, its bias already one row, at `(p, q)`. -/
theorem hostLinear_apply {φ₁ φ₂ : FTy} (h : FVec Ideal ⟨2, ![n, K]⟩ φ₁) (W : FVec Ideal ⟨2, ![K, N]⟩ φ₂)
    (b : FVec Ideal ⟨2, ![1, N]⟩ .f32)
    (h₂ : (⟨2, ![1, N]⟩ : Shape).BroadcastsInDim ⟨2, ![n, N]⟩ (![0, 1] : Fin 2 → Fin (⟨2, ![n, N]⟩ : Shape).rank))
    (p : Fin n) (q : Fin N) :
    addf (Host.dotGeneral (DotDims.plain n K N) none h W) (broadcastInDim ⟨2, ![n, N]⟩ ![0, 1] h₂ b) (ix2 p q)
      = ∑ k : Fin K, h (ix2 p k) * W (ix2 k q) + b (ix2 (0 : Fin 1) q) := by
  have h1 := Cert.LibHostStack.dotGeneral_plain_apply h W p q
  have h2 := Cert.LibColumns.broadcastInDim_1b_ab_apply (a := n) b h₂ p q
  show Host.dotGeneral (DotDims.plain n K N) none h W (ix2 p q) + broadcastInDim ⟨2, ![n, N]⟩ ![0, 1] h₂ b (ix2 p q) = _
  rw [h1, h2]

/-- A vector reshaped to one row is the vector laid as one row by a broadcast. -/
theorem row_eq_cast {α : Type} (x : (⟨1, ![N]⟩ : Shape).Idx → α) (hc : (⟨1, ![N]⟩ : Shape).ShapeCasts ⟨2, ![1, N]⟩)
    (h₁ : (⟨1, ![N]⟩ : Shape).BroadcastsInDim ⟨2, ![1, N]⟩ (![1] : Fin 1 → Fin (⟨2, ![1, N]⟩ : Shape).rank)) :
    shapeCast ⟨2, ![1, N]⟩ x hc = broadcastInDim ⟨2, ![1, N]⟩ ![1] h₁ x := by
  funext j
  obtain ⟨u, q, rfl⟩ : ∃ (u : Fin 1) (q : Fin N), j = ix2 u q := ⟨j 0, j 1, eq_ix2 j⟩
  rw [Cert.LibColumns.broadcastInDim_b_1b_apply x h₁ u q]
  refine shapeCast_apply x hc _ _ ?_
  rw [Shape.rowMajor_val_two, Shape.rowMajor_val_one]
  have hu : u.val = 0 := by have := u.isLt; omega
  show q.val = u.val * N + q.val
  rw [hu, Nat.zero_mul, Nat.zero_add]

end Cert.LibLinear

end
-- ==== Proof.LibAffineRows.lean ====
/-
  Affine layers on matrices of extended reals, by coordinates, for any extents, and the rectified two-layer unit
  built from them, together with their behaviour under a choice of rows.

      plus A B        (p, c) ↦ A (p, c) + B (p, c)                    the entrywise sum
      addRow A b      (p, c) ↦ A (p, c) + b (0, c)                    one row b added to every row of A
      affine A W b    = addRow (times A W) b                          (p, c) ↦ Σ_k A (p, k) · W (k, c) + b (0, c)
      unit G H W₁ b₁ W₂ b₂ = affine (clampBelow 0 (affine (plus H G) W₁ b₁)) W₂ b₂

  Row p of each result depends only on row p of the left operands, so each commutes with `rows σ` (by `rfl`):
  a layer computed band of rows by band of rows against resident weights is the layer of the whole arrays.

  At the exact instance the printed spellings are these functions: the vector unit's product into a zero
  accumulator plus a broadcast one-row bias, and the host's `dot_general` plus a broadcast one-row bias, are
  `affine`; a maximum against a broadcast zero (either spelling) is `clampBelow 0`; `addf` is `plus`. Sums and
  products are total on the extended reals, so nothing here asks for finiteness.
-/
import Idealize.ShloMosaic.Lib.ValueIdx
import Idealize.ShloMosaic.Lib.ValueLayout
import Idealize.ShloMosaic.Lib.Pipeline.Value
import Idealize.ShloMosaic.PureOps.Ideal.Laws
import proofs.«153382_j28217935134950_2_alg».proof.Proof.LibMatrixRows
import proofs.«153382_j28217935134950_2_alg».proof.Proof.LibLinear

noncomputable section

namespace Cert.LibAffineRows

open Idealize.ShloMosaic Idealize.ShloMosaic.ValueIdx Cert.LibMatrixRows
open scoped BigOperators

variable {M K N P Q : ℕ}

/-- The entrywise sum. -/
def plus (A B : Mat M N) : Mat M N := fun i => A i + B i

/-- One row added to every row. -/
def addRow (A : Mat M N) (b : Mat 1 N) : Mat M N := fun i => A i + b (ix2 (0 : Fin 1) (i 1))

/-- A product plus one bias row. -/
def affine (A : Mat M K) (W : Mat K N) (b : Mat 1 N) : Mat M N := addRow (times A W) b

/-- The rectified two-layer unit applied to `H + G`. -/
def unit (G H : Mat M N) (W₁ : Mat N K) (b₁ : Mat 1 K) (W₂ : Mat K P) (b₂ : Mat 1 P) : Mat M P :=
  affine (clampBelow 0 (affine (plus H G) W₁ b₁)) W₂ b₂

theorem affine_apply (A : Mat M K) (W : Mat K N) (b : Mat 1 N) (p : Fin M) (c : Fin N) :
    affine A W b (ix2 p c) = ∑ k : Fin K, A (ix2 p k) * W (ix2 k c) + b (ix2 (0 : Fin 1) c) := rfl

theorem rows_plus (σ : Fin M → Fin Q) (A B : Mat Q N) : rows σ (plus A B) = plus (rows σ A) (rows σ B) := rfl

theorem rows_addRow (σ : Fin M → Fin Q) (A : Mat Q N) (b : Mat 1 N) : rows σ (addRow A b) = addRow (rows σ A) b := rfl

theorem rows_affine (σ : Fin M → Fin Q) (A : Mat Q K) (W : Mat K N) (b : Mat 1 N) :
    rows σ (affine A W b) = affine (rows σ A) W b := rfl

theorem rows_unit (σ : Fin M → Fin Q) (G H : Mat Q N) (W₁ : Mat N K) (b₁ : Mat 1 K) (W₂ : Mat K P) (b₂ : Mat 1 P) :
    rows σ (unit G H W₁ b₁ W₂ b₂) = unit (rows σ G) (rows σ H) W₁ b₁ W₂ b₂ := rfl

/-! ## One row of a band against the same row of the whole array

A band of rows `Ab` of `A` agrees with `A` row by row; at matching rows and equal columns the layer of the band is the
layer of the whole array. The band's row and the array's row are given by two indices `j` and `i`. -/

/-- An affine layer of a band, at `j`, is the affine layer of the whole array at `i`, when row `j 0` of the band is
    row `i 0` of the array, the weights and the bias row are the same, and the columns agree. -/
theorem affine_block (A : Mat Q K) (W : Mat K N) (b : Mat 1 N) (Ab : Mat M K) (Wb : Mat K N) (bb : Mat 1 N)
    (j : (⟨2, ![M, N]⟩ : Shape).Idx) (i : (⟨2, ![Q, N]⟩ : Shape).Idx)
    (hA : ∀ k : Fin K, Ab (ix2 (j 0) k) = A (ix2 (i 0) k)) (hW : Wb = W) (hb : bb = b)
    (hcol : (i 1).val = (j 1).val) :
    affine Ab Wb bb j = affine A W b i := by
  subst hW hb
  have e : (i 1 : Fin N) = j 1 := Fin.ext hcol
  show (∑ k : Fin K, Ab (ix2 (j 0) k) * Wb (ix2 k (j 1))) + bb (ix2 (0 : Fin 1) (j 1))
     = (∑ k : Fin K, A (ix2 (i 0) k) * Wb (ix2 k (i 1))) + bb (ix2 (0 : Fin 1) (i 1))
  rw [e]
  exact congrArg (· + bb (ix2 (0 : Fin 1) (j 1))) (Finset.sum_congr rfl fun k _ => by rw [hA k])

/-- The rectified two-layer unit of a band, at `j`, is the unit of the whole arrays at `i`, under the same
    agreements (both row-banded operands `G` and `H`). -/
theorem unit_block (G H : Mat Q N) (W₁ : Mat N K) (b₁ : Mat 1 K) (W₂ : Mat K P) (b₂ : Mat 1 P)
    (Gb Hb : Mat M N) (W₁b : Mat N K) (b₁b : Mat 1 K) (W₂b : Mat K P) (b₂b : Mat 1 P)
    (j : (⟨2, ![M, P]⟩ : Shape).Idx) (i : (⟨2, ![Q, P]⟩ : Shape).Idx)
    (hG : ∀ k : Fin N, Gb (ix2 (j 0) k) = G (ix2 (i 0) k)) (hH : ∀ k : Fin N, Hb (ix2 (j 0) k) = H (ix2 (i 0) k))
    (hW₁ : W₁b = W₁) (hb₁ : b₁b = b₁) (hW₂ : W₂b = W₂) (hb₂ : b₂b = b₂)
    (hcol : (i 1).val = (j 1).val) :
    unit Gb Hb W₁b b₁b W₂b b₂b j = unit G H W₁ b₁ W₂ b₂ i := by
  refine affine_block _ W₂ b₂ _ W₂b b₂b j i (fun k => ?_) hW₂ hb₂ hcol
  show max (affine (plus Hb Gb) W₁b b₁b (ix2 (j 0) k)) 0 = max (affine (plus H G) W₁ b₁ (ix2 (i 0) k)) 0
  refine congrArg (max · 0) (affine_block _ W₁ b₁ _ W₁b b₁b (ix2 (j 0) k) (ix2 (i 0) k) (fun k₂ => ?_) hW₁ hb₁ rfl)
  show Hb (ix2 (j 0) k₂) + Gb (ix2 (j 0) k₂) = H (ix2 (i 0) k₂) + G (ix2 (i 0) k₂)
  rw [hH k₂, hG k₂]

/-! ## The printed spellings at the exact instance -/

/-- The vector unit's product into a zero accumulator plus a one-row bias repeated down the rows. -/
theorem vectorAffine_eq {φ₁ φ₂ : FTy} (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) :
    addf (matmul (DotDims.plain M K N) none h W (constant ⟨2, ![M, N]⟩ .f32 0x00000000#32)) (broadcastTo ⟨2, ![M, N]⟩ b hb)
      = affine (M := M) (K := K) (N := N) h W b := by
  funext j
  obtain ⟨p, q, rfl⟩ : ∃ (p : Fin M) (q : Fin N), j = ix2 p q := ⟨j 0, j 1, eq_ix2 j⟩
  rw [Cert.LibLinear.vectorLinear_apply]
  rfl

/-- The host's `dot_general` plus a one-row bias repeated down the rows. -/
theorem hostAffine_eq {φ₁ φ₂ : FTy} (h : FVec Ideal ⟨2, ![M, K]⟩ φ₁) (W : FVec Ideal ⟨2, ![K, N]⟩ φ₂)
    (b : FVec Ideal ⟨2, ![1, N]⟩ .f32)
    (h₂ : (⟨2, ![1, N]⟩ : Shape).BroadcastsInDim ⟨2, ![M, N]⟩ (![0, 1] : Fin 2 → Fin (⟨2, ![M, N]⟩ : Shape).rank)) :
    addf (Host.dotGeneral (DotDims.plain M K N) none h W) (broadcastInDim ⟨2, ![M, N]⟩ ![0, 1] h₂ b)
      = affine (M := M) (K := K) (N := N) h W b := by
  funext j
  obtain ⟨p, q, rfl⟩ : ∃ (p : Fin M) (q : Fin N), j = ix2 p q := ⟨j 0, j 1, eq_ix2 j⟩
  rw [Cert.LibLinear.hostLinear_apply]
  rfl

/-- The vector unit's maximum against a broadcast zero. -/
theorem vectorRelu_eq (X : FVec Ideal ⟨2, ![M, N]⟩ .f32) :
    maximumf X (broadcast ⟨2, ![M, N]⟩ (Scalar.ofBits .f32 0x00000000#32)) = clampBelow (M := M) (N := N) 0 X := by
  funext j
  show max (X j) (Ideal.ofBits .f32 0x00000000#32) = max (X j) 0
  rw [Ideal.ofBits_zero_f32]

/-- The host's maximum against a zero constant laid over the array. -/
theorem hostRelu_eq (X : FVec Ideal ⟨2, ![M, N]⟩ .f32)
    (h₀ : (⟨0, ![]⟩ : Shape).BroadcastsInDim ⟨2, ![M, N]⟩ (![] : Fin 0 → Fin (⟨2, ![M, N]⟩ : Shape).rank)) :
    maximumf X (broadcastInDim ⟨2, ![M, N]⟩ ![] h₀ (constant (F := Ideal) ⟨0, ![]⟩ .f32 0x00000000#32))
      = clampBelow (M := M) (N := N) 0 X := by
  funext j
  have h3 : broadcastInDim ⟨2, ![M, N]⟩ ![] h₀ (constant (F := Ideal) ⟨0, ![]⟩ .f32 0x00000000#32) j = 0 :=
    (broadcastInDim_apply _ h₀ _ j (fun a => a.elim0) (fun a => a.elim0)).trans Ideal.ofBits_zero_f32
  show max (X j) (broadcastInDim ⟨2, ![M, N]⟩ ![] h₀ (constant (F := Ideal) ⟨0, ![]⟩ .f32 0x00000000#32) j) = max (X j) 0
  rw [h3]

/-- The entrywise float sum. -/
theorem addf_eq_plus (A B : FVec Ideal ⟨2, ![M, N]⟩ .f32) : addf A B = plus (M := M) (N := N) A B := rfl

end Cert.LibAffineRows

end
-- ==== Proof.Spec.lean ====
/-
  The soft cluster assignment of an encoder's output, on matrices of extended reals, for any number of rows.

      encode θ X      seven affine layers X ↦ X · W + b, the second and the fourth followed by a clamp below at 0
      colNorms C      (0, c) ↦ Σ_k C (k, c)²
      sqDist F C      (p, c) ↦ Σ_k F (p, k)² − 2 · Σ_k F (p, k) · C (k, c) + Σ_k C (k, c)²
                      (on real entries this is the squared distance Σ_k (F (p, k) − C (k, c))² of row p of F
                      to column c of C, with the square expanded)
      soft ν F C      (p, c) ↦ ν (1 + sqDist F C (p, c)) / Σ_c' ν (1 + sqDist F C (p, c'))
      assign ν θ X C  = soft ν (encode θ X) C

  ν is Student's kernel with one degree of freedom, y ↦ 1 / y. It is spelt in two ways: as the quotient of 1 by y, and
  as the power y ^ (−1). Row p of every result depends on row p of X only, so each function commutes with a choice
  of rows: computed band of rows by band of rows, it is the function of the whole array.
-/
import proofs.«153382_j28217935134950_2_alg».proof.Proof.LibAffineRows

noncomputable section

namespace Cert.SoftAssign

open Idealize.ShloMosaic Idealize.ShloMosaic.ValueIdx Cert.LibMatrixRows Cert.LibAffineRows
open scoped BigOperators

/-! ## The words the programs spell -/

/-- The word of `+0.0` denotes 0. -/
theorem word_zero : Ideal.ofBits .f32 0x00000000#32 = 0 := by
  simp [Ideal.ofBits, Ideal.ieee]

/-- The word of `1.0` denotes 1. -/
theorem word_one : Ideal.ofBits .f32 0x3F800000#32 = 1 := by
  simp [Ideal.ofBits, Ideal.ieee, -EReal.coe_mul]; norm_num

/-- The word of `2.0` denotes 2. -/
theorem word_two : Ideal.ofBits .f32 0x40000000#32 = 2 := by
  simp [Ideal.ofBits, Ideal.ieee, -EReal.coe_mul]; norm_num
  first | rfl | norm_cast

/-- The word of `-1.0` denotes the real −1. -/
theorem word_negOne : Ideal.ofBits .f32 0xBF800000#32 = ((-1 : ℝ) : EReal) := by
  simp [Ideal.ofBits, Ideal.ieee, -EReal.coe_mul]; norm_num

/-! ## The encoder -/

/-- The encoder's parameters: seven weight matrices, each with its bias kept as one row. -/
structure Params where
  W1 : Mat 72 128
  b1 : Mat 1 128
  W2 : Mat 128 256
  b2 : Mat 1 256
  W3 : Mat 256 256
  b3 : Mat 1 256
  W4 : Mat 256 512
  b4 : Mat 1 512
  W5 : Mat 512 512
  b5 : Mat 1 512
  W6 : Mat 512 512
  b6 : Mat 1 512
  W7 : Mat 512 200
  b7 : Mat 1 200

/-- A vector laid out as one row. -/
def row {N : ℕ} (b : Vect N) : Mat 1 N := fun i => b (ix1 (i 1))

/-- The parameters as the programs receive them: each bias a vector, laid out as one row. -/
def params (W1 : Mat 72 128) (b1 : Vect 128) (W2 : Mat 128 256) (b2 : Vect 256) (W3 : Mat 256 256) (b3 : Vect 256)
    (W4 : Mat 256 512) (b4 : Vect 512) (W5 : Mat 512 512) (b5 : Vect 512) (W6 : Mat 512 512) (b6 : Vect 512)
    (W7 : Mat 512 200) (b7 : Vect 200) : Params :=
  ⟨W1, row b1, W2, row b2, W3, row b3, W4, row b4, W5, row b5, W6, row b6, W7, row b7⟩

/-- Every entry of an array is a real number (neither infinity). -/
def RealEntries {s : Shape} (A : s.Idx → EReal) : Prop := ∀ i, ∃ r : ℝ, A i = ((r : ℝ) : EReal)

theorem RealEntries.row {N : ℕ} {b : Vect N} (h : RealEntries b) : RealEntries (row b) := fun i => h _

/-- Every parameter has real entries. -/
def Params.AllReal (θ : Params) : Prop :=
  RealEntries θ.W1 ∧ RealEntries θ.b1 ∧ RealEntries θ.W2 ∧ RealEntries θ.b2 ∧ RealEntries θ.W3 ∧ RealEntries θ.b3
    ∧ RealEntries θ.W4 ∧ RealEntries θ.b4 ∧ RealEntries θ.W5 ∧ RealEntries θ.b5 ∧ RealEntries θ.W6 ∧ RealEntries θ.b6
    ∧ RealEntries θ.W7 ∧ RealEntries θ.b7

variable {M Q K N : ℕ}

/-- Seven affine layers; the second and the fourth are followed by a clamp below at 0. -/
def encode (θ : Params) (X : Mat M 72) : Mat M 200 :=
  affine (affine (affine (clampBelow 0 (affine (affine (clampBelow 0 (affine (affine X θ.W1 θ.b1) θ.W2 θ.b2))
    θ.W3 θ.b3) θ.W4 θ.b4)) θ.W5 θ.b5) θ.W6 θ.b6) θ.W7 θ.b7

theorem rows_encode (σ : Fin M → Fin Q) (θ : Params) (X : Mat Q 72) : rows σ (encode θ X) = encode θ (rows σ X) := rfl

/-! ## The expanded squared distance and the soft assignment -/

/-- The squared norm of every column, as one row. -/
def colNorms (C : Mat K N) : Mat 1 N := fun i => ∑ k : Fin K, C (ix2 k (i 1)) * C (ix2 k (i 1))

/-- The squared distance of row `p` of `F` to column `c` of `C`, with the square expanded. -/
def sqDist (F : Mat M K) (C : Mat K N) : Mat M N := fun i =>
  (∑ k : Fin K, F (ix2 (i 0) k) * F (ix2 (i 0) k)) - 2 * times F C i + colNorms C (ix2 (0 : Fin 1) (i 1))

/-- The kernel `ν` of one plus the squared distance, normalised along each row. -/
def soft (ν : EReal → EReal) (F : Mat M K) (C : Mat K N) : Mat M N := fun i =>
  Ideal.div (ν (1 + sqDist F C i)) (∑ c : Fin N, ν (1 + sqDist F C (ix2 (i 0) c)))

/-- The soft assignment of the encoded rows to the columns of `C`. -/
def assign (ν : EReal → EReal) (θ : Params) (X : Mat M 72) (C : Mat 200 72) : Mat M 72 := soft ν (encode θ X) C

theorem rows_sqDist (σ : Fin M → Fin Q) (F : Mat Q K) (C : Mat K N) : rows σ (sqDist F C) = sqDist (rows σ F) C := rfl

theorem rows_soft (σ : Fin M → Fin Q) (ν : EReal → EReal) (F : Mat Q K) (C : Mat K N) :
    rows σ (soft ν F C) = soft ν (rows σ F) C := rfl

theorem rows_assign (σ : Fin M → Fin Q) (ν : EReal → EReal) (θ : Params) (X : Mat Q 72) (C : Mat 200 72) :
    rows σ (assign ν θ X C) = assign ν θ (rows σ X) C := rfl

/-- Student's kernel as a quotient. -/
def byQuotient (y : EReal) : EReal := Ideal.div 1 y

/-- Student's kernel as a power. -/
def byPower (y : EReal) : EReal := Ideal.pow y ((-1 : ℝ) : EReal)

/-- Two kernels that agree at every value one plus a squared distance takes give the same assignment. -/
theorem soft_congr (ν ν' : EReal → EReal) (F : Mat M K) (C : Mat K N)
    (h : ∀ i, ν (1 + sqDist F C i) = ν' (1 + sqDist F C i)) : soft ν F C = soft ν' F C := by
  funext i
  show Ideal.div (ν (1 + sqDist F C i)) (∑ c : Fin N, ν (1 + sqDist F C (ix2 (i 0) c)))
     = Ideal.div (ν' (1 + sqDist F C i)) (∑ c : Fin N, ν' (1 + sqDist F C (ix2 (i 0) c)))
  rw [h i, Finset.sum_congr rfl fun c _ => h (ix2 (i 0) c)]

end Cert.SoftAssign

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.KernelPayload.lean ====
/-
  One chunk of rows through the kernel's arithmetic is the soft assignment of those rows.

  The body's arithmetic on a chunk X of 1024 rows is: seven products into a zero accumulator, each followed by one
  bias row repeated down the rows, the second and fourth also by a maximum against zero — the encoder —; then, with
  F the encoded chunk, the row sums of F ⊙ F, the product F · C, the combination (‖F p‖² − 2 · (F · C)) + n with n a
  given row, its image under y ↦ 1 / (1 + y), and that image divided by its own row sums. When n is the row of
  squared column norms of C this is `assign byQuotient` of the chunk. Roundings to a narrower format are the
  identity on extended reals, so the narrowed operands of the products are the operands themselves.
-/
import proofs.«153382_j28217935134950_2_alg».proof.Proof.Gen.KernelIdeal.Skeleton
import proofs.«153382_j28217935134950_2_alg».proof.Proof.Spec
import proofs.«153382_j28217935134950_2_alg».proof.Proof.LibAffineRows
import proofs.«153382_j28217935134950_2_alg».proof.Proof.LibRowwise
import Idealize.ShloMosaic.Lib.ValueLayout

noncomputable section

namespace Cert.KernelPayload

open Cert.KernelIdeal Cert.KernelIdeal.Gen Cert.SoftAssign Cert.LibMatrixRows Cert.LibAffineRows
open Idealize.ShloMosaic Idealize.ShloMosaic.ValueIdx
open scoped BigOperators

/-- A product into a zero accumulator, with no bias, is `times`. -/
theorem vectorTimes_eq {M K N : ℕ} {φ₁ φ₂ : FTy} (h : FVec Ideal ⟨2, ![M, K]⟩ φ₁) (W : FVec Ideal ⟨2, ![K, N]⟩ φ₂) :
    matmul (DotDims.plain M K N) none h W (constant ⟨2, ![M, N]⟩ .f32 0x00000000#32) = times (M := M) (K := K) (N := N) h W := by
  funext j
  obtain ⟨p, q, rfl⟩ : ∃ (p : Fin M) (q : Fin N), j = ix2 p q := ⟨j 0, j 1, eq_ix2 j⟩
  exact Cert.LibMatmul2d.matmul_plain_apply h W p q

/-- The tail of the arithmetic on an encoded chunk `F`: squared distances against `C` with the column norms given as
    the row `n`, Student's kernel as a quotient, normalised along each row. -/
theorem tail_eq (F : FVec Ideal S1024x200 .f32) (C : FVec Ideal S200x72 .bf16) (n : FVec Ideal S1x72 .f32)
    (hn : (n : Mat 1 72) = colNorms (K := 200) (N := 72) C) :
    (let v65 : FVec Ideal S1024x200 .f32 := mulf F F
     let v66 : FVec Ideal S1024 .f32 := multiReduction .add [1] S1024 v65 0x00000000#32 reduces_S1024x200_S1024 (.inl rfl) rfl
     let v67 : FVec Ideal S1024x1 .f32 := shapeCast S1024x1 v66 shapeCasts_S1024_S1024x1
     let v71 : FVec Ideal S1024x72 .f32 := matmul dot_S1024x200_S200x72_S1024x72_1_0_0_1_n_n none (truncf .bf16 F bitsLt_bf16_f32) C (constant S1024x72 .f32 0x00000000#32)
     let v73 : FVec Ideal S1024x72 .f32 := mulf (broadcast S1024x72 (Scalar.ofBits .f32 0x40000000#32)) v71
     let v75 : FVec Ideal S1024x72 .f32 := subf (broadcastTo S1024x72 v67 broadcasts_S1024x1_S1024x72) v73
     let v79 : FVec Ideal S1024x72 .f32 := addf v75 (broadcastTo S1024x72 n broadcasts_S1x72_S1024x72)
     let v81 : FVec Ideal S1024x72 .f32 := addf (broadcast S1024x72 (Scalar.ofBits .f32 0x3F800000#32)) v79
     let v83 : FVec Ideal S1024x72 .f32 := divf (broadcast S1024x72 (Scalar.ofBits .f32 0x3F800000#32)) v81
     let v84 : FVec Ideal S1024 .f32 := multiReduction .add [1] S1024 v83 0x00000000#32 reduces_S1024x72_S1024 (.inl rfl) rfl
     let v85 : FVec Ideal S1024x1 .f32 := shapeCast S1024x1 v84 shapeCasts_S1024_S1024x1
     divf v83 (broadcastTo S1024x72 v85 broadcasts_S1024x1_S1024x72))
      = soft (M := 1024) (K := 200) (N := 72) byQuotient F C := by
  have hcross : matmul dot_S1024x200_S200x72_S1024x72_1_0_0_1_n_n none (truncf .bf16 F bitsLt_bf16_f32) C (constant S1024x72 .f32 0x00000000#32)
      = times (M := 1024) (K := 200) (N := 72) F C := vectorTimes_eq (M := 1024) (K := 200) (N := 72) (truncf .bf16 F bitsLt_bf16_f32) C
  -- a row sum over the last axis, for the two extents met here
  have hsum200 : ∀ (G : FVec Ideal S1024x200 .f32) (p : Fin 1024),
      multiReduction .add [1] S1024 G 0x00000000#32 reduces_S1024x200_S1024 (.inl rfl) rfl (ix1 p) = ∑ k : Fin 200, G (ix2 p k) :=
    fun G p => Cert.LibRowwise.rowSum_apply (a := 1024) (b := 200) G 0x00000000#32 reduces_S1024x200_S1024 (.inl rfl) rfl p
  have hsum72 : ∀ (G : FVec Ideal S1024x72 .f32) (p : Fin 1024),
      multiReduction .add [1] S1024 G 0x00000000#32 reduces_S1024x72_S1024 (.inl rfl) rfl (ix1 p) = ∑ c : Fin 72, G (ix2 p c) :=
    fun G p => Cert.LibRowwise.rowSum_apply (a := 1024) (b := 72) G 0x00000000#32 reduces_S1024x72_S1024 (.inl rfl) rfl p
  dsimp only
  rw [hcross]
  -- the value of the kernel of Student at one entry
  have hnom : ∀ (p : Fin 1024) (c : Fin 72),
      divf (broadcast S1024x72 (Scalar.ofBits .f32 0x3F800000#32))
        (addf (broadcast S1024x72 (Scalar.ofBits .f32 0x3F800000#32))
          (addf (subf (broadcastTo S1024x72 (shapeCast S1024x1 (multiReduction .add [1] S1024 (mulf F F) 0x00000000#32 reduces_S1024x200_S1024 (.inl rfl) rfl) shapeCasts_S1024_S1024x1) broadcasts_S1024x1_S1024x72)
              (mulf (broadcast S1024x72 (Scalar.ofBits .f32 0x40000000#32)) (times (M := 1024) (K := 200) (N := 72) F C)))
            (broadcastTo S1024x72 n broadcasts_S1x72_S1024x72))) (ix2 p c)
        = byQuotient (1 + sqDist (M := 1024) (K := 200) (N := 72) F C (ix2 p c)) := by
    intro p c
    rw [divf_apply, addf_apply, addf_apply, subf_apply, mulf_apply, broadcast_apply, broadcast_apply,
      Cert.LibRowwise.perRow_apply, hsum200, broadcastTo_1b_ab_apply, hn]
    show Ideal.div (Ideal.ofBits .f32 0x3F800000#32) (Ideal.ofBits .f32 0x3F800000#32
        + ((∑ k : Fin 200, F (ix2 p k) * F (ix2 p k)) - Ideal.ofBits .f32 0x40000000#32 * times (M := 1024) (K := 200) (N := 72) F C (ix2 p c)
          + colNorms (K := 200) (N := 72) C (ix2 (0 : Fin 1) c))) = _
    rw [word_one, word_two]
    rfl
  funext j
  obtain ⟨p, q, rfl⟩ : ∃ (p : Fin 1024) (q : Fin 72), j = ix2 p q := ⟨j 0, j 1, eq_ix2 j⟩
  rw [divf_apply, hnom p q, Cert.LibRowwise.perRow_apply, hsum72]
  show Ideal.div _ (∑ c : Fin 72, _) = Ideal.div _ (∑ c : Fin 72, _)
  exact congrArg (Ideal.div _) (Finset.sum_congr rfl fun c _ => hnom p c)

/-- A product into a zero accumulator plus one bias row repeated down the rows, for a printed record of the plain
    M×K · K×N contraction. -/
theorem layer_eq {M K N : ℕ} {φ₁ φ₂ : FTy} (D : DotDims ⟨2, ![M, K]⟩ ⟨2, ![K, N]⟩ ⟨2, ![M, N]⟩) (hD : D = DotDims.plain M K N)
    (h : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) :
    addf (matmul D none h W (constant ⟨2, ![M, N]⟩ .f32 0x00000000#32)) (broadcastTo ⟨2, ![M, N]⟩ b hb)
      = affine (M := M) (K := K) (N := N) h W b := by
  subst hD
  exact vectorAffine_eq h W b hb

/-- The whole arithmetic of one chunk: with the last operand the row of squared column norms of `x15`, the stored
    value is the soft assignment of the chunk's rows. -/
theorem payload_eq (x0c : FVec Ideal S1024x72 .bf16) (x1 : FVec Ideal S72x128 .bf16) (x2 : FVec Ideal S1x128 .f32)
    (x3 : FVec Ideal S128x256 .bf16) (x4 : FVec Ideal S1x256 .f32) (x5 : FVec Ideal S256x256 .bf16) (x6 : FVec Ideal S1x256 .f32)
    (x7 : FVec Ideal S256x512 .bf16) (x8 : FVec Ideal S1x512 .f32) (x9 : FVec Ideal S512x512 .bf16) (x10 : FVec Ideal S1x512 .f32)
    (x11 : FVec Ideal S512x512 .bf16) (x12 : FVec Ideal S1x512 .f32) (x13 : FVec Ideal S512x200 .bf16) (x14 : FVec Ideal S1x200 .f32)
    (x15 : FVec Ideal S200x72 .bf16) (x16 : FVec Ideal S1x72 .f32) (h16 : (x16 : Mat 1 72) = colNorms (K := 200) (N := 72) x15) :
    k0_pay1 (F := Ideal) (k0_pay4 (k0_pay2 x0c x1 x2 x3 x4 x5 x6 x7) (k0_pay3 x8) x9 x10 x11 x12 x13 x14 x15) x16
      = assign byQuotient (⟨x1, x2, x3, x4, x5, x6, x7, x8, x9, x10, x11, x12, x13, x14⟩ : Params) x0c x15 := by
  have a1 := fun h W b => layer_eq (φ₁ := .bf16) (φ₂ := .bf16) dot_S1024x72_S72x128_S1024x128_1_0_0_1_n_n rfl h W b broadcasts_S1x128_S1024x128
  have a2 := fun h W b => layer_eq (φ₁ := .bf16) (φ₂ := .bf16) dot_S1024x128_S128x256_S1024x256_1_0_0_1_n_n rfl h W b broadcasts_S1x256_S1024x256
  have a3 := fun h W b => layer_eq (φ₁ := .bf16) (φ₂ := .bf16) dot_S1024x256_S256x256_S1024x256_1_0_0_1_n_n rfl h W b broadcasts_S1x256_S1024x256
  have a4 := fun h W b => layer_eq (φ₁ := .bf16) (φ₂ := .bf16) dot_S1024x256_S256x512_S1024x512_1_0_0_1_n_n rfl h W b broadcasts_S1x512_S1024x512
  have a5 := fun h W b => layer_eq (φ₁ := .bf16) (φ₂ := .bf16) dot_S1024x512_S512x512_S1024x512_1_0_0_1_n_n rfl h W b broadcasts_S1x512_S1024x512
  have a7 := fun h W b => layer_eq (φ₁ := .bf16) (φ₂ := .bf16) dot_S1024x512_S512x200_S1024x200_1_0_0_1_n_n rfl h W b broadcasts_S1x200_S1024x200
  unfold k0_pay1 k0_pay4 k0_pay2 k0_pay3
  dsimp only
  simp only [shapeCast_self]
  rw [a1, a2, vectorRelu_eq, a3, a4, vectorRelu_eq, a5, a5, a7]
  exact tail_eq _ x15 x16 h16

end Cert.KernelPayload

end
-- ==== Proof.KernelBlock.lean ====
/-
  What the kernel's body leaves in its output block is one function of the block's inputs.

  The body is a loop of sixteen trips; trip k loads rows 1024·k … 1024·k + 1023 of the staged input block, runs the
  arithmetic of one chunk on them and stores the result at the same rows of the output block. A chunk of rows of the
  input is a choice of rows, and the soft assignment commutes with a choice of rows, so every stored piece is the
  restriction to its rectangle of ONE function of the whole block: the soft assignment of the block's 16384 rows.
  The sixteen rectangles cover the block, so the block read back is that function.
-/
import proofs.«153382_j28217935134950_2_alg».proof.Proof.Gen.KernelIdeal.Frame
import proofs.«153382_j28217935134950_2_alg».proof.Proof.KernelPayload

set_option maxRecDepth 16384

noncomputable section

namespace Cert.KernelBlock

open Cert.KernelIdeal Cert.KernelIdeal.Gen Cert.SoftAssign Cert.LibMatrixRows Cert.KernelPayload
open Idealize.ShloMosaic Idealize.ShloMosaic.ValueIdx Idealize.ShloMosaic.TcCoe Idealize.ShloMosaic.Tactic Idealize.SL.Sem

/-- The two zero offsets of a whole-buffer load are the zero function. -/
theorem zeros2 : (![0, 0] : Fin 2 → ℕ) = fun _ => 0 := by
  funext a
  match a with
  | ⟨0, _⟩ => rfl
  | ⟨1, _⟩ => rfl

/-- Row `p` of trip `k`'s chunk is row `1024 · k + p` of the block. -/
def chunkRow (k : Fin k0_t1_loop.trips) (p : Fin 1024) : Fin 16384 :=
  ⟨1024 * k.val + p.val, by
    have hk : k.val < 16 := Nat.lt_of_lt_of_le k.isLt k0_t1_abs.2.1
    have hp := p.isLt
    omega⟩

/-- Trip `k`'s rectangle places its local index `(p, q)` at `(1024 · k + p, q)`. -/
theorem emb_chunk (k : Fin k0_t1_loop.trips) (x : S1024x72.Idx) :
    (Rect.unit (s := S16384x72) (k0_off1 k) S1024x72.size (k0_off1_inb k)).emb x = ix2 (chunkRow k (x 0)) (x 1) := by
  funext a
  apply Fin.ext
  match a with
  | ⟨0, _⟩ =>
    show k0_off1 k 0 + 1 * (x 0).val = 1024 * k.val + (x 0).val
    rw [k0_off1_eq]
    show 1024 * k.val + 1 * (x 0).val = 1024 * k.val + (x 0).val
    omega
  | ⟨1, _⟩ =>
    show k0_off1 k 1 + 1 * (x 1).val = (x 1).val
    rw [k0_off1_eq]
    show 0 + 1 * (x 1).val = (x 1).val
    omega

/-- The rows trip `k` loads are a choice of rows of the block. -/
theorem chunk_eq_rows (k : Fin k0_t1_loop.trips) (x0 : Vec Ideal S16384x72 .bf16) :
    View.ld x0 (Rect.unit (s := S16384x72) (k0_off1 k) S1024x72.size (k0_off1_inb k)) = rows (M := 1024) (P := 16384) (N := 72) (chunkRow k) x0 := by
  funext x
  exact congrArg x0 (emb_chunk k x)

/-- The soft assignment of the block's rows: what the output block holds after the body. -/
def blockValue (x0 : Vec Ideal S16384x72 .bf16) (x1 : Vec Ideal S72x128 .bf16) (x2 : Vec Ideal S1x128 .f32) (x3 : Vec Ideal S128x256 .bf16) (x4 : Vec Ideal S1x256 .f32) (x5 : Vec Ideal S256x256 .bf16) (x6 : Vec Ideal S1x256 .f32) (x7 : Vec Ideal S256x512 .bf16) (x8 : Vec Ideal S1x512 .f32) (x9 : Vec Ideal S512x512 .bf16) (x10 : Vec Ideal S1x512 .f32) (x11 : Vec Ideal S512x512 .bf16) (x12 : Vec Ideal S1x512 .f32) (x13 : Vec Ideal S512x200 .bf16) (x14 : Vec Ideal S1x200 .f32) (x15 : Vec Ideal S200x72 .bf16)  : Mat 16384 72 :=
  assign byQuotient (⟨x1, x2, x3, x4, x5, x6, x7, x8, x9, x10, x11, x12, x13, x14⟩ : Params) x0 x15

section
variable (𝒱 : Variants) (c : Dev nD) (bd : Option 𝒱.V) (i : grid0.Coords) (arg1 : Memref sig .tc .vmem S16384x72 .bf16) (harg1 : arg1.IsWhole) (arg2 : Memref sig .tc .vmem S72x128 .bf16) (harg2 : arg2.IsWhole) (arg3 : Memref sig .tc .vmem S1x128 .f32) (harg3 : arg3.IsWhole) (arg4 : Memref sig .tc .vmem S128x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x200 .bf16) (harg14 : arg14.IsWhole) (arg15 : Memref sig .tc .vmem S1x200 .f32) (harg15 : arg15.IsWhole) (arg16 : Memref sig .tc .vmem S200x72 .bf16) (harg16 : arg16.IsWhole) (arg17 : Memref sig .tc .vmem S1x72 .f32) (harg17 : arg17.IsWhole) (arg18 : Memref sig .tc .vmem S16384x72 .f32) (harg18 : arg18.IsWhole)
variable (x0 : Vec Ideal S16384x72 .bf16) (x1 : Vec Ideal S72x128 .bf16) (x2 : Vec Ideal S1x128 .f32) (x3 : Vec Ideal S128x256 .bf16) (x4 : Vec Ideal S1x256 .f32) (x5 : Vec Ideal S256x256 .bf16) (x6 : Vec Ideal S1x256 .f32) (x7 : Vec Ideal S256x512 .bf16) (x8 : Vec Ideal S1x512 .f32) (x9 : Vec Ideal S512x512 .bf16) (x10 : Vec Ideal S1x512 .f32) (x11 : Vec Ideal S512x512 .bf16) (x12 : Vec Ideal S1x512 .f32) (x13 : Vec Ideal S512x200 .bf16) (x14 : Vec Ideal S1x200 .f32) (x15 : Vec Ideal S200x72 .bf16) (x16 : Vec Ideal S1x72 .f32)

/-- The one piece trip `k` stores: at the trip's rectangle, the arithmetic of one chunk on the rows the trip loads and
    on the other operands whole (a load of a whole buffer through zero offsets reads the buffer). -/
theorem trip_piece (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) k
      = [⟨(Rect.unit (s := S16384x72) (k0_off1 k) S1024x72.size (k0_off1_inb k)), k0_pay1 (F := Ideal) (k0_pay4 (k0_pay2 (View.ld x0 (Rect.unit (s := S16384x72) (k0_off1 k) S1024x72.size (k0_off1_inb k))) x1 x2 x3 x4 x5 x6 x7) (k0_pay3 x8) x9 x10 x11 x12 x13 x14 x15) x16⟩] := by
  unfold tripL_k0_t1 trip_k0_t1
  dsimp only
  sl_unfold_run_names
  simp only [View.readAt_eq_ld, Memref.IsWhole.read_unread,
    View.ld_unit_zero (S := S72x128) zeros2, View.ld_unit_zero (S := S1x128) zeros2, View.ld_unit_zero (S := S128x256) zeros2,
    View.ld_unit_zero (S := S1x256) zeros2, View.ld_unit_zero (S := S256x256) zeros2, View.ld_unit_zero (S := S256x512) zeros2,
    View.ld_unit_zero (S := S1x512) zeros2, View.ld_unit_zero (S := S512x512) zeros2, View.ld_unit_zero (S := S512x200) zeros2,
    View.ld_unit_zero (S := S1x200) zeros2, View.ld_unit_zero (S := S200x72) zeros2, View.ld_unit_zero (S := S1x72) zeros2]

variable (h16 : (x16 : Mat 1 72) = colNorms (K := 200) (N := 72) x15)
include h16

/-- Trip `k`'s piece is the block's function restricted to the trip's rectangle. -/
theorem trip_is_block (k : Fin k0_t1_loop.trips) :
    ∀ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) k,
      ∀ x : p.1.shape.Idx, p.2 x = blockValue x0 x1 x2 x3 x4 x5 x6 x7 x8 x9 x10 x11 x12 x13 x14 x15 (p.1.emb x) := by
  intro p hp
  rw [trip_piece] at hp
  obtain rfl := List.mem_singleton.mp hp
  intro x
  show k0_pay1 (F := Ideal) (k0_pay4 (k0_pay2 (View.ld x0 (Rect.unit (s := S16384x72) (k0_off1 k) S1024x72.size (k0_off1_inb k))) x1 x2 x3 x4 x5 x6 x7) (k0_pay3 x8) x9 x10 x11 x12 x13 x14 x15) x16 x = blockValue x0 x1 x2 x3 x4 x5 x6 x7 x8 x9 x10 x11 x12 x13 x14 x15 ((Rect.unit (s := S16384x72) (k0_off1 k) S1024x72.size (k0_off1_inb k)).emb x)
  rw [payload_eq _ x1 x2 x3 x4 x5 x6 x7 x8 x9 x10 x11 x12 x13 x14 x15 x16 h16, chunk_eq_rows, emb_chunk]
  rfl

/-- So are the pieces of the trips before `n`, for every `n` up to the trip count. -/
theorem pieces_are_block : ∀ (n : ℕ), n ≤ k0_t1_loop.trips →
    ∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) n,
      ∀ x : p.1.shape.Idx, p.2 x = blockValue x0 x1 x2 x3 x4 x5 x6 x7 x8 x9 x10 x11 x12 x13 x14 x15 (p.1.emb x)
  | 0, _ => by
    intro p hp
    rw [pb_k0_t1] at hp
    exact absurd hp (List.not_mem_nil)
  | n + 1, hn => by
    intro p hp
    have e : pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) (n + 1)
        = tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) ⟨n, hn⟩
          ++ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) n :=
      pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) ⟨n, hn⟩
    rw [e] at hp
    rcases List.mem_append.mp hp with h | h
    · exact trip_is_block 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 h16 ⟨n, hn⟩ p h
    · exact pieces_are_block n (Nat.le_of_succ_le hn) p h

end

/-- After the body the output block holds the soft assignment of the block's rows. -/
theorem out_block (c : Dev nD) (i : grid0.Coords) (arg1 : Memref sig .tc .vmem S16384x72 .bf16) (harg1 : arg1.IsWhole) (arg2 : Memref sig .tc .vmem S72x128 .bf16) (harg2 : arg2.IsWhole) (arg3 : Memref sig .tc .vmem S1x128 .f32) (harg3 : arg3.IsWhole) (arg4 : Memref sig .tc .vmem S128x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x200 .bf16) (harg14 : arg14.IsWhole) (arg15 : Memref sig .tc .vmem S1x200 .f32) (harg15 : arg15.IsWhole) (arg16 : Memref sig .tc .vmem S200x72 .bf16) (harg16 : arg16.IsWhole) (arg17 : Memref sig .tc .vmem S1x72 .f32) (harg17 : arg17.IsWhole) (arg18 : Memref sig .tc .vmem S16384x72 .f32) (harg18 : arg18.IsWhole) (x0 : Vec Ideal S16384x72 .bf16) (x1 : Vec Ideal S72x128 .bf16) (x2 : Vec Ideal S1x128 .f32) (x3 : Vec Ideal S128x256 .bf16) (x4 : Vec Ideal S1x256 .f32) (x5 : Vec Ideal S256x256 .bf16) (x6 : Vec Ideal S1x256 .f32) (x7 : Vec Ideal S256x512 .bf16) (x8 : Vec Ideal S1x512 .f32) (x9 : Vec Ideal S512x512 .bf16) (x10 : Vec Ideal S1x512 .f32) (x11 : Vec Ideal S512x512 .bf16) (x12 : Vec Ideal S1x512 .f32) (x13 : Vec Ideal S512x200 .bf16) (x14 : Vec Ideal S1x200 .f32) (x15 : Vec Ideal S200x72 .bf16) (x16 : Vec Ideal S1x72 .f32)
    (h16 : (x16 : Mat 1 72) = colNorms (K := 200) (N := 72) x15) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 = blockValue x0 x1 x2 x3 x4 x5 x6 x7 x8 x9 x10 x11 x12 x13 x14 x15 := by
  unfold out0_A_17
  rw [View.read_writes_eq_canon _ _ _ (cover0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16)]
  funext y
  refine View.canon_apply_of_pieces (blockValue x0 x1 x2 x3 x4 x5 x6 x7 x8 x9 x10 x11 x12 x13 x14 x15) _ ?_ y (cover0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 y)
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16).1
      = pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) (harg14.unread x13) (harg15.unread x14) (harg16.unread x15) (harg17.unread x16) k0_t1_loop.trips := rfl
  rw [e]
  exact pieces_are_block Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 h16 k0_t1_loop.trips (le_refl _)

end Cert.KernelBlock

end
-- ==== Proof.KernelArray.lean ====
/-
  From the blocks to the array: the kernel's result array is the soft assignment of all the rows.

  The region finds, written by the host operations before it: the input and the eight matrices as given (a change of
  format is the identity on extended reals), the seven biases each laid out as one row, and the row of squared
  column norms of the centres. Sixteen of the seventeen input windows are resident: their block at every grid point is
  the whole array. The first window's block at point t is rows 16384·t … 16384·t + 16383 of the input: a choice of
  rows. The body leaves the soft assignment of its block's rows, which is therefore block t of the soft assignment of
  all the rows; the sixteen blocks cover the result array.
-/
import proofs.«153382_j28217935134950_2_alg».proof.Proof.Gen.KernelIdeal.Value
import proofs.«153382_j28217935134950_2_alg».proof.Proof.KernelBlock
import proofs.«153382_j28217935134950_2_alg».proof.Proof.LibColumns
import Idealize.ShloMosaic.Lib.StableHlo.Run
import Idealize.ShloMosaic.Lib.ValueLayout

set_option maxRecDepth 16384

noncomputable section

namespace Cert.KernelArray

open Cert.KernelIdeal Cert.KernelIdeal.Gen Cert.SoftAssign Cert.LibMatrixRows Cert.KernelBlock
open Idealize.ShloMosaic Idealize.ShloMosaic.ValueIdx Idealize.ShloMosaic.TcCoe Idealize.SL.Sem Idealize.ShloMosaic.StableHlo
open Idealize.ShloMosaic.Pipeline (Dat)
open scoped BigOperators

variable (m : (ℓ : Loc nD τ sig) → Buf (Elt Ideal) ℓ) (ρ : Dev nD → PrngReg)

/-! ## The arrays as the region finds them -/

/-- The host's change of format leaves the array as given. -/
theorem V_main_v0 (c : Dev nD) : (V m c main_v0 : S262144x72.Idx → EReal) = ((m ((c : Thread nD τ).loc main_arg0)) : S262144x72.Idx → EReal) := by
  dsimp only [V, hostOps0]; after_results; all_goals rfl

/-- The host's change of format leaves the array as given. -/
theorem V_main_v1 (c : Dev nD) : (V m c main_v1 : S72x128.Idx → EReal) = ((m ((c : Thread nD τ).loc main_arg1)) : S72x128.Idx → EReal) := by
  dsimp only [V, hostOps0]; after_results; all_goals rfl

/-- The host's change of format leaves the array as given. -/
theorem V_main_v2 (c : Dev nD) : (V m c main_v2 : S128x256.Idx → EReal) = ((m ((c : Thread nD τ).loc main_arg3)) : S128x256.Idx → EReal) := by
  dsimp only [V, hostOps0]; after_results; all_goals rfl

/-- The host's change of format leaves the array as given. -/
theorem V_main_v3 (c : Dev nD) : (V m c main_v3 : S256x256.Idx → EReal) = ((m ((c : Thread nD τ).loc main_arg5)) : S256x256.Idx → EReal) := by
  dsimp only [V, hostOps0]; after_results; all_goals rfl

/-- The host's change of format leaves the array as given. -/
theorem V_main_v4 (c : Dev nD) : (V m c main_v4 : S256x512.Idx → EReal) = ((m ((c : Thread nD τ).loc main_arg7)) : S256x512.Idx → EReal) := by
  dsimp only [V, hostOps0]; after_results; all_goals rfl

/-- The host's change of format leaves the array as given. -/
theorem V_main_v5 (c : Dev nD) : (V m c main_v5 : S512x512.Idx → EReal) = ((m ((c : Thread nD τ).loc main_arg9)) : S512x512.Idx → EReal) := by
  dsimp only [V, hostOps0]; after_results; all_goals rfl

/-- The host's change of format leaves the array as given. -/
theorem V_main_v6 (c : Dev nD) : (V m c main_v6 : S512x512.Idx → EReal) = ((m ((c : Thread nD τ).loc main_arg11)) : S512x512.Idx → EReal) := by
  dsimp only [V, hostOps0]; after_results; all_goals rfl

/-- The host's change of format leaves the array as given. -/
theorem V_main_v7 (c : Dev nD) : (V m c main_v7 : S512x200.Idx → EReal) = ((m ((c : Thread nD τ).loc main_arg13)) : S512x200.Idx → EReal) := by
  dsimp only [V, hostOps0]; after_results; all_goals rfl

/-- The host's change of format leaves the array as given. -/
theorem V_main_v8 (c : Dev nD) : (V m c main_v8 : S200x72.Idx → EReal) = ((m ((c : Thread nD τ).loc main_arg15)) : S200x72.Idx → EReal) := by
  dsimp only [V, hostOps0]; after_results; all_goals rfl

/-- The host's reshape lays the bias vector out as one row. -/
theorem V_main_v9 (c : Dev nD) : (V m c main_v9 : S1x128.Idx → EReal) = row (N := 128) ((m ((c : Thread nD τ).loc main_arg2)) : S128.Idx → EReal) := by
  have e : (V m c main_v9 : S1x128.Idx → EReal) = shapeCast S1x128 ((m ((c : Thread nD τ).loc main_arg2)) : S128.Idx → EReal) shapeCasts_S128_S1x128 := by
    dsimp only [V, hostOps0]; after_results; all_goals rfl
  rw [e]
  funext i
  obtain ⟨u, q, rfl⟩ : ∃ (u : Fin 1) (q : Fin 128), i = ix2 u q := ⟨i 0, i 1, eq_ix2 i⟩
  exact shapeCast_a_1a_apply _ _ u q

/-- The host's reshape lays the bias vector out as one row. -/
theorem V_main_v10 (c : Dev nD) : (V m c main_v10 : S1x256.Idx → EReal) = row (N := 256) ((m ((c : Thread nD τ).loc main_arg4)) : S256.Idx → EReal) := by
  have e : (V m c main_v10 : S1x256.Idx → EReal) = shapeCast S1x256 ((m ((c : Thread nD τ).loc main_arg4)) : S256.Idx → EReal) shapeCasts_S256_S1x256 := by
    dsimp only [V, hostOps0]; after_results; all_goals rfl
  rw [e]
  funext i
  obtain ⟨u, q, rfl⟩ : ∃ (u : Fin 1) (q : Fin 256), i = ix2 u q := ⟨i 0, i 1, eq_ix2 i⟩
  exact shapeCast_a_1a_apply _ _ u q

/-- The host's reshape lays the bias vector out as one row. -/
theorem V_main_v11 (c : Dev nD) : (V m c main_v11 : S1x256.Idx → EReal) = row (N := 256) ((m ((c : Thread nD τ).loc main_arg6)) : S256.Idx → EReal) := by
  have e : (V m c main_v11 : S1x256.Idx → EReal) = shapeCast S1x256 ((m ((c : Thread nD τ).loc main_arg6)) : S256.Idx → EReal) shapeCasts_S256_S1x256 := by
    dsimp only [V, hostOps0]; after_results; all_goals rfl
  rw [e]
  funext i
  obtain ⟨u, q, rfl⟩ : ∃ (u : Fin 1) (q : Fin 256), i = ix2 u q := ⟨i 0, i 1, eq_ix2 i⟩
  exact shapeCast_a_1a_apply _ _ u q

/-- The host's reshape lays the bias vector out as one row. -/
theorem V_main_v12 (c : Dev nD) : (V m c main_v12 : S1x512.Idx → EReal) = row (N := 512) ((m ((c : Thread nD τ).loc main_arg8)) : S512.Idx → EReal) := by
  have e : (V m c main_v12 : S1x512.Idx → EReal) = shapeCast S1x512 ((m ((c : Thread nD τ).loc main_arg8)) : S512.Idx → EReal) shapeCasts_S512_S1x512 := by
    dsimp only [V, hostOps0]; after_results; all_goals rfl
  rw [e]
  funext i
  obtain ⟨u, q, rfl⟩ : ∃ (u : Fin 1) (q : Fin 512), i = ix2 u q := ⟨i 0, i 1, eq_ix2 i⟩
  exact shapeCast_a_1a_apply _ _ u q

/-- The host's reshape lays the bias vector out as one row. -/
theorem V_main_v13 (c : Dev nD) : (V m c main_v13 : S1x512.Idx → EReal) = row (N := 512) ((m ((c : Thread nD τ).loc main_arg10)) : S512.Idx → EReal) := by
  have e : (V m c main_v13 : S1x512.Idx → EReal) = shapeCast S1x512 ((m ((c : Thread nD τ).loc main_arg10)) : S512.Idx → EReal) shapeCasts_S512_S1x512 := by
    dsimp only [V, hostOps0]; after_results; all_goals rfl
  rw [e]
  funext i
  obtain ⟨u, q, rfl⟩ : ∃ (u : Fin 1) (q : Fin 512), i = ix2 u q := ⟨i 0, i 1, eq_ix2 i⟩
  exact shapeCast_a_1a_apply _ _ u q

/-- The host's reshape lays the bias vector out as one row. -/
theorem V_main_v14 (c : Dev nD) : (V m c main_v14 : S1x512.Idx → EReal) = row (N := 512) ((m ((c : Thread nD τ).loc main_arg12)) : S512.Idx → EReal) := by
  have e : (V m c main_v14 : S1x512.Idx → EReal) = shapeCast S1x512 ((m ((c : Thread nD τ).loc main_arg12)) : S512.Idx → EReal) shapeCasts_S512_S1x512 := by
    dsimp only [V, hostOps0]; after_results; all_goals rfl
  rw [e]
  funext i
  obtain ⟨u, q, rfl⟩ : ∃ (u : Fin 1) (q : Fin 512), i = ix2 u q := ⟨i 0, i 1, eq_ix2 i⟩
  exact shapeCast_a_1a_apply _ _ u q

/-- The host's reshape lays the bias vector out as one row. -/
theorem V_main_v15 (c : Dev nD) : (V m c main_v15 : S1x200.Idx → EReal) = row (N := 200) ((m ((c : Thread nD τ).loc main_arg14)) : S200.Idx → EReal) := by
  have e : (V m c main_v15 : S1x200.Idx → EReal) = shapeCast S1x200 ((m ((c : Thread nD τ).loc main_arg14)) : S200.Idx → EReal) shapeCasts_S200_S1x200 := by
    dsimp only [V, hostOps0]; after_results; all_goals rfl
  rw [e]
  funext i
  obtain ⟨u, q, rfl⟩ : ∃ (u : Fin 1) (q : Fin 200), i = ix2 u q := ⟨i 0, i 1, eq_ix2 i⟩
  exact shapeCast_a_1a_apply _ _ u q

/-- The host's sum over the first axis of the entrywise square of the centres, laid out as one row, is the row of
    squared column norms. -/
theorem V_main_v18 (c : Dev nD) : (V m c main_v18 : S1x72.Idx → EReal)
    = colNorms (K := 200) (N := 72) ((m ((c : Thread nD τ).loc main_arg15)) : S200x72.Idx → EReal) := by
  have e : (V m c main_v18 : S1x72.Idx → EReal) = broadcastInDim S1x72 ![1] bcast_S72_S1x72_1
      (Host.reduceAdd (F := Ideal) (mulf ((m ((c : Thread nD τ).loc main_arg15)) : FVec Ideal S200x72 .f32) (m ((c : Thread nD τ).loc main_arg15)))
        (constant (F := Ideal) S_ .f32 0x00000000#32) reducesTo_S200x72_S72_d0 h_S_) := by
    dsimp only [V, hostOps0]; after_results; all_goals rfl
  rw [e]
  generalize ((m ((c : Thread nD τ).loc main_arg15)) : FVec Ideal S200x72 .f32) = C
  funext i
  obtain ⟨u, q, rfl⟩ : ∃ (u : Fin 1) (q : Fin 72), i = ix2 u q := ⟨i 0, i 1, eq_ix2 i⟩
  rw [Cert.LibColumns.broadcastInDim_b_1b_apply]
  simp only [Host.reduceAdd, Ideal.hostReduceAdd_def]
  rw [Ideal.hostReduceAdd_single reducesTo_S200x72_S72_d0 (by decide)]
  show Ideal.ofBits .f32 0x00000000#32 + _ = _
  rw [word_zero, zero_add]
  refine Finset.sum_congr rfl fun k _ => ?_
  have e2 : (by decide : (S200x72 : Shape).Reduces [0] S72).lift (ix1 q) k = ix2 k q :=
    funext fun a => Fin.ext (by match a with | ⟨0, _⟩ => rfl | ⟨1, _⟩ => rfl)
  rw [e2]
  rfl

/-! ## The windows' blocks -/

/-- The printed index maps, decided over the sixteen grid points: the first input window and the output window move
    with the point along the rows; every other window stays at block (0, 0). -/
theorem idx_facts : ∀ t : Fin cfg0.N,
    win0_0.index t (0 : Fin 2) = t.val ∧ win0_0.index t (1 : Fin 2) = 0
    ∧ win0_17.index t (0 : Fin 2) = t.val ∧ win0_17.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0 :=
  (by decide +kernel : ∀ t : Fin grid0.N, _)

/-- Window 1 is resident: its block at every point is the whole array. -/
theorem iblk_1 (c : Dev nD) (t : Fin cfg0.N) : iblk m c 1 t = V m c main_v1 := by
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  funext y
  show V m c main_v1 (((cfg0.win 1).blk t).view.emb y) = V m c main_v1 y
  refine congrArg _ (funext fun a => Fin.ext ?_)
  match a with
  | ⟨0, _⟩ => show win0_1.index t (0 : Fin 2) * 72 + 1 * (y 0).val = (y 0).val; rw [r1a]; omega
  | ⟨1, _⟩ => show win0_1.index t (1 : Fin 2) * 128 + 1 * (y 1).val = (y 1).val; rw [r1b]; omega

/-- Window 2 is resident: its block at every point is the whole array. -/
theorem iblk_2 (c : Dev nD) (t : Fin cfg0.N) : iblk m c 2 t = V m c main_v9 := by
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  funext y
  show V m c main_v9 (((cfg0.win 2).blk t).view.emb y) = V m c main_v9 y
  refine congrArg _ (funext fun a => Fin.ext ?_)
  match a with
  | ⟨0, _⟩ => show win0_2.index t (0 : Fin 2) * 1 + 1 * (y 0).val = (y 0).val; rw [r2a]; omega
  | ⟨1, _⟩ => show win0_2.index t (1 : Fin 2) * 128 + 1 * (y 1).val = (y 1).val; rw [r2b]; omega

/-- Window 3 is resident: its block at every point is the whole array. -/
theorem iblk_3 (c : Dev nD) (t : Fin cfg0.N) : iblk m c 3 t = V m c main_v2 := by
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  funext y
  show V m c main_v2 (((cfg0.win 3).blk t).view.emb y) = V m c main_v2 y
  refine congrArg _ (funext fun a => Fin.ext ?_)
  match a with
  | ⟨0, _⟩ => show win0_3.index t (0 : Fin 2) * 128 + 1 * (y 0).val = (y 0).val; rw [r3a]; omega
  | ⟨1, _⟩ => show win0_3.index t (1 : Fin 2) * 256 + 1 * (y 1).val = (y 1).val; rw [r3b]; omega

/-- Window 4 is resident: its block at every point is the whole array. -/
theorem iblk_4 (c : Dev nD) (t : Fin cfg0.N) : iblk m c 4 t = V m c main_v10 := by
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  funext y
  show V m c main_v10 (((cfg0.win 4).blk t).view.emb y) = V m c main_v10 y
  refine congrArg _ (funext fun a => Fin.ext ?_)
  match a with
  | ⟨0, _⟩ => show win0_4.index t (0 : Fin 2) * 1 + 1 * (y 0).val = (y 0).val; rw [r4a]; omega
  | ⟨1, _⟩ => show win0_4.index t (1 : Fin 2) * 256 + 1 * (y 1).val = (y 1).val; rw [r4b]; omega

/-- Window 5 is resident: its block at every point is the whole array. -/
theorem iblk_5 (c : Dev nD) (t : Fin cfg0.N) : iblk m c 5 t = V m c main_v3 := by
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  funext y
  show V m c main_v3 (((cfg0.win 5).blk t).view.emb y) = V m c main_v3 y
  refine congrArg _ (funext fun a => Fin.ext ?_)
  match a with
  | ⟨0, _⟩ => show win0_5.index t (0 : Fin 2) * 256 + 1 * (y 0).val = (y 0).val; rw [r5a]; omega
  | ⟨1, _⟩ => show win0_5.index t (1 : Fin 2) * 256 + 1 * (y 1).val = (y 1).val; rw [r5b]; omega

/-- Window 6 is resident: its block at every point is the whole array. -/
theorem iblk_6 (c : Dev nD) (t : Fin cfg0.N) : iblk m c 6 t = V m c main_v11 := by
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  funext y
  show V m c main_v11 (((cfg0.win 6).blk t).view.emb y) = V m c main_v11 y
  refine congrArg _ (funext fun a => Fin.ext ?_)
  match a with
  | ⟨0, _⟩ => show win0_6.index t (0 : Fin 2) * 1 + 1 * (y 0).val = (y 0).val; rw [r6a]; omega
  | ⟨1, _⟩ => show win0_6.index t (1 : Fin 2) * 256 + 1 * (y 1).val = (y 1).val; rw [r6b]; omega

/-- Window 7 is resident: its block at every point is the whole array. -/
theorem iblk_7 (c : Dev nD) (t : Fin cfg0.N) : iblk m c 7 t = V m c main_v4 := by
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  funext y
  show V m c main_v4 (((cfg0.win 7).blk t).view.emb y) = V m c main_v4 y
  refine congrArg _ (funext fun a => Fin.ext ?_)
  match a with
  | ⟨0, _⟩ => show win0_7.index t (0 : Fin 2) * 256 + 1 * (y 0).val = (y 0).val; rw [r7a]; omega
  | ⟨1, _⟩ => show win0_7.index t (1 : Fin 2) * 512 + 1 * (y 1).val = (y 1).val; rw [r7b]; omega

/-- Window 8 is resident: its block at every point is the whole array. -/
theorem iblk_8 (c : Dev nD) (t : Fin cfg0.N) : iblk m c 8 t = V m c main_v12 := by
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  funext y
  show V m c main_v12 (((cfg0.win 8).blk t).view.emb y) = V m c main_v12 y
  refine congrArg _ (funext fun a => Fin.ext ?_)
  match a with
  | ⟨0, _⟩ => show win0_8.index t (0 : Fin 2) * 1 + 1 * (y 0).val = (y 0).val; rw [r8a]; omega
  | ⟨1, _⟩ => show win0_8.index t (1 : Fin 2) * 512 + 1 * (y 1).val = (y 1).val; rw [r8b]; omega

/-- Window 9 is resident: its block at every point is the whole array. -/
theorem iblk_9 (c : Dev nD) (t : Fin cfg0.N) : iblk m c 9 t = V m c main_v5 := by
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  funext y
  show V m c main_v5 (((cfg0.win 9).blk t).view.emb y) = V m c main_v5 y
  refine congrArg _ (funext fun a => Fin.ext ?_)
  match a with
  | ⟨0, _⟩ => show win0_9.index t (0 : Fin 2) * 512 + 1 * (y 0).val = (y 0).val; rw [r9a]; omega
  | ⟨1, _⟩ => show win0_9.index t (1 : Fin 2) * 512 + 1 * (y 1).val = (y 1).val; rw [r9b]; omega

/-- Window 10 is resident: its block at every point is the whole array. -/
theorem iblk_10 (c : Dev nD) (t : Fin cfg0.N) : iblk m c 10 t = V m c main_v13 := by
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  funext y
  show V m c main_v13 (((cfg0.win 10).blk t).view.emb y) = V m c main_v13 y
  refine congrArg _ (funext fun a => Fin.ext ?_)
  match a with
  | ⟨0, _⟩ => show win0_10.index t (0 : Fin 2) * 1 + 1 * (y 0).val = (y 0).val; rw [r10a]; omega
  | ⟨1, _⟩ => show win0_10.index t (1 : Fin 2) * 512 + 1 * (y 1).val = (y 1).val; rw [r10b]; omega

/-- Window 11 is resident: its block at every point is the whole array. -/
theorem iblk_11 (c : Dev nD) (t : Fin cfg0.N) : iblk m c 11 t = V m c main_v6 := by
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  funext y
  show V m c main_v6 (((cfg0.win 11).blk t).view.emb y) = V m c main_v6 y
  refine congrArg _ (funext fun a => Fin.ext ?_)
  match a with
  | ⟨0, _⟩ => show win0_11.index t (0 : Fin 2) * 512 + 1 * (y 0).val = (y 0).val; rw [r11a]; omega
  | ⟨1, _⟩ => show win0_11.index t (1 : Fin 2) * 512 + 1 * (y 1).val = (y 1).val; rw [r11b]; omega

/-- Window 12 is resident: its block at every point is the whole array. -/
theorem iblk_12 (c : Dev nD) (t : Fin cfg0.N) : iblk m c 12 t = V m c main_v14 := by
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  funext y
  show V m c main_v14 (((cfg0.win 12).blk t).view.emb y) = V m c main_v14 y
  refine congrArg _ (funext fun a => Fin.ext ?_)
  match a with
  | ⟨0, _⟩ => show win0_12.index t (0 : Fin 2) * 1 + 1 * (y 0).val = (y 0).val; rw [r12a]; omega
  | ⟨1, _⟩ => show win0_12.index t (1 : Fin 2) * 512 + 1 * (y 1).val = (y 1).val; rw [r12b]; omega

/-- Window 13 is resident: its block at every point is the whole array. -/
theorem iblk_13 (c : Dev nD) (t : Fin cfg0.N) : iblk m c 13 t = V m c main_v7 := by
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  funext y
  show V m c main_v7 (((cfg0.win 13).blk t).view.emb y) = V m c main_v7 y
  refine congrArg _ (funext fun a => Fin.ext ?_)
  match a with
  | ⟨0, _⟩ => show win0_13.index t (0 : Fin 2) * 512 + 1 * (y 0).val = (y 0).val; rw [r13a]; omega
  | ⟨1, _⟩ => show win0_13.index t (1 : Fin 2) * 200 + 1 * (y 1).val = (y 1).val; rw [r13b]; omega

/-- Window 14 is resident: its block at every point is the whole array. -/
theorem iblk_14 (c : Dev nD) (t : Fin cfg0.N) : iblk m c 14 t = V m c main_v15 := by
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  funext y
  show V m c main_v15 (((cfg0.win 14).blk t).view.emb y) = V m c main_v15 y
  refine congrArg _ (funext fun a => Fin.ext ?_)
  match a with
  | ⟨0, _⟩ => show win0_14.index t (0 : Fin 2) * 1 + 1 * (y 0).val = (y 0).val; rw [r14a]; omega
  | ⟨1, _⟩ => show win0_14.index t (1 : Fin 2) * 200 + 1 * (y 1).val = (y 1).val; rw [r14b]; omega

/-- Window 15 is resident: its block at every point is the whole array. -/
theorem iblk_15 (c : Dev nD) (t : Fin cfg0.N) : iblk m c 15 t = V m c main_v8 := by
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  funext y
  show V m c main_v8 (((cfg0.win 15).blk t).view.emb y) = V m c main_v8 y
  refine congrArg _ (funext fun a => Fin.ext ?_)
  match a with
  | ⟨0, _⟩ => show win0_15.index t (0 : Fin 2) * 200 + 1 * (y 0).val = (y 0).val; rw [r15a]; omega
  | ⟨1, _⟩ => show win0_15.index t (1 : Fin 2) * 72 + 1 * (y 1).val = (y 1).val; rw [r15b]; omega

/-- Window 16 is resident: its block at every point is the whole array. -/
theorem iblk_16 (c : Dev nD) (t : Fin cfg0.N) : iblk m c 16 t = V m c main_v18 := by
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  funext y
  show V m c main_v18 (((cfg0.win 16).blk t).view.emb y) = V m c main_v18 y
  refine congrArg _ (funext fun a => Fin.ext ?_)
  match a with
  | ⟨0, _⟩ => show win0_16.index t (0 : Fin 2) * 1 + 1 * (y 0).val = (y 0).val; rw [r16a]; omega
  | ⟨1, _⟩ => show win0_16.index t (1 : Fin 2) * 72 + 1 * (y 1).val = (y 1).val; rw [r16b]; omega

/-- Row `p` of grid point `t`'s block is row `16384 · t + p` of the array. -/
def blockRow (t : Fin cfg0.N) (p : Fin 16384) : Fin 262144 :=
  ⟨16384 * t.val + p.val, by
    have ht : t.val < 16 := Nat.lt_of_lt_of_eq t.isLt (show cfg0.N = 16 from N_0)
    have hp := p.isLt
    omega⟩

/-- The first input window's block at point `t` is a choice of rows of the input. -/
theorem iblk_0 (c : Dev nD) (t : Fin cfg0.N) :
    iblk m c 0 t = rows (M := 16384) (P := 262144) (N := 72) (blockRow t) (V m c main_v0 : S262144x72.Idx → EReal) := by
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  funext y
  show V m c main_v0 (((cfg0.win 0).blk t).view.emb y) = V m c main_v0 (ix2 (blockRow t (y 0)) (y 1))
  refine congrArg _ (funext fun a => Fin.ext ?_)
  match a with
  | ⟨0, _⟩ => show win0_0.index t (0 : Fin 2) * 16384 + 1 * (y 0).val = 16384 * t.val + (y 0).val; rw [e0a]; omega
  | ⟨1, _⟩ => show win0_0.index t (1 : Fin 2) * 72 + 1 * (y 1).val = (y 1).val; rw [e0b]; omega

/-- The output window's block at point `t` places its local index `(p, q)` at `(16384 · t + p, q)`. -/
theorem emb_17 (t : Fin cfg0.N) (j : S16384x72.Idx) :
    ((cfg0.win 17).blk t).view.emb j = ix2 (blockRow t (j 0)) (j 1) := by
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  refine funext fun a => Fin.ext ?_
  match a with
  | ⟨0, _⟩ => show win0_17.index t (0 : Fin 2) * 16384 + 1 * (j 0).val = 16384 * t.val + (j 0).val; rw [e17a]; omega
  | ⟨1, _⟩ => show win0_17.index t (1 : Fin 2) * 72 + 1 * (j 1).val = (j 1).val; rw [e17b]; omega

/-! ## The result array -/

/-- The soft assignment of all the rows of the input, from the arguments as given. -/
def result (c : Dev nD) : S262144x72.Idx → EReal :=
  assign byQuotient (params (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
    (m ((c : Thread nD τ).loc main_arg0)) (m ((c : Thread nD τ).loc main_arg15))

/-- What point `t` writes back is block `t` of the soft assignment of all the rows. -/
theorem flushed_eq (c : Dev nD) (t : Fin cfg0.N) :
    (dats m 0 c).flushed 17 t = ((cfg0.win 17).blk t).view.read (Elt Ideal) (result m c) := by
  have h16 : (iblk m c 16 t : Mat 1 72) = colNorms (K := 200) (N := 72) (iblk m c 15 t) := by
    rw [iblk_16, iblk_15, V_main_v18, V_main_v8]
  refine (Cert.KernelIdeal.Value.flushed17_A m c t).trans ?_
  refine (congrArg ((cfg0.win 17).cut (grid0.coords t))
    (out_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) h16)).trans ?_
  funext j
  show blockValue (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j
    = result m c (((cfg0.win 17).blk t).view.emb j)
  rw [emb_17, iblk_0, iblk_1, iblk_2, iblk_3, iblk_4, iblk_5, iblk_6, iblk_7, iblk_8, iblk_9, iblk_10, iblk_11, iblk_12, iblk_13, iblk_14, iblk_15,
    V_main_v0, V_main_v1, V_main_v2, V_main_v3, V_main_v4, V_main_v5, V_main_v6, V_main_v7, V_main_v8,
    V_main_v9, V_main_v10, V_main_v11, V_main_v12, V_main_v13, V_main_v14, V_main_v15]
  rfl

/-- An index of the result array is in point `t`'s block iff each coordinate is in the block's range on its axis. -/
theorem mem_blk17 (t : Fin cfg0.N) (i : S262144x72.Idx) :
    i ∈ ((cfg0.win 17).blk t).view.set ↔ ∀ a : Fin 2, win0_17.index t a * S16384x72.size a ≤ (i a).val
      ∧ (i a).val < win0_17.index t a * S16384x72.size a + S16384x72.size a := by
  show i ∈ ((View.whole main_v19).slice (win0_17.rect t)).set ↔ _
  rw [View.set_slice_whole, Rect.mem_set_unit]
  exact Iff.rfl

/-- The sixteen blocks cover the result array: row `r` is in the block of point `r / 16384`. -/
theorem cover (i : S262144x72.Idx) : ∃ t : Fin cfg0.N, (cfg0.win 17).flush t = true ∧ i ∈ ((cfg0.win 17).blk t).view.set := by
  have hi0 : (i 0).val < 262144 := (i 0).isLt
  have hi1 : (i 1).val < 72 := (i 1).isLt
  have hN : cfg0.N = 16 := N_0
  let t : Fin cfg0.N := ⟨(i 0).val / 16384, by rw [hN]; omega⟩
  have htv : t.val = (i 0).val / 16384 := rfl
  obtain ⟨e0a, e0b, e17a, e17b, r1a, r1b, r2a, r2b, r3a, r3b, r4a, r4b, r5a, r5b, r6a, r6b, r7a, r7b, r8a, r8b, r9a, r9b, r10a, r10b, r11a, r11b, r12a, r12b, r13a, r13b, r14a, r14b, r15a, r15b, r16a, r16b⟩ := idx_facts t
  refine ⟨t, flush0_17 t, ?_⟩
  rw [mem_blk17]
  intro a
  match a with
  | ⟨0, _⟩ =>
    show win0_17.index t (0 : Fin 2) * 16384 ≤ (i 0).val ∧ (i 0).val < win0_17.index t (0 : Fin 2) * 16384 + 16384
    rw [e17a, htv]; omega
  | ⟨1, _⟩ =>
    show win0_17.index t (1 : Fin 2) * 72 ≤ (i 1).val ∧ (i 1).val < win0_17.index t (1 : Fin 2) * 72 + 72
    rw [e17b]; omega

/-- The result array after the run. -/
theorem final (c : Dev nD) : (dats m 0 c).arrAt 17 cfg0.N = result m c :=
  (dats m 0 c).arrAt_eq_of_cover 17 (result m c) (fun t _ => flushed_eq m c t) cover

/-- The kernel's run: the result array ends at the soft assignment of all the rows, the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Cert.KernelIdeal.Value.run_blocks m ρ)

end Cert.KernelArray

end
-- ==== Proof.RefValue.lean ====
/-
  The reference program's value is the soft cluster assignment of the specification.

  The program is read in two parts. Its first thirty operations are the encoder: seven times a matrix product plus a
  bias vector laid out as one row and repeated down the rows, the second and the fourth followed by a maximum against
  zero; as whole arrays these are the seven affine layers of `encode`. The remaining operations are read at one entry
  (p, q): the row's sum of squares, minus twice the product with the centres, plus the column's sum of squares is the
  expanded squared distance; dividing it by one changes nothing; one plus it, raised to the power −1, is the kernel; and
  the quotient by the sum of the kernel along the row is the soft assignment. Nothing here asks for finiteness.
-/
import proofs.«153382_j28217935134950_2_alg».proof.Proof.Gen.ReferenceIdeal.Read
import proofs.«153382_j28217935134950_2_alg».proof.Proof.Spec
import proofs.«153382_j28217935134950_2_alg».proof.Proof.LibAffineRows
import proofs.«153382_j28217935134950_2_alg».proof.Proof.LibRowwise
import proofs.«153382_j28217935134950_2_alg».proof.Proof.LibColumns

noncomputable section

namespace Cert.RefValue

open Cert.ReferenceIdeal Cert.ReferenceIdeal.Read Cert.SoftAssign Cert.LibMatrixRows Cert.LibAffineRows
open Idealize.ShloMosaic Idealize.ShloMosaic.ValueIdx
open scoped BigOperators

/-! ## The encoder, as whole arrays -/

/-- A vector laid out as one row by a broadcast is the row of the specification. -/
theorem broadcastRow_eq {N : ℕ} (b : FVec Ideal ⟨1, ![N]⟩ .f32)
    (h₁ : (⟨1, ![N]⟩ : Shape).BroadcastsInDim ⟨2, ![1, N]⟩ (![1] : Fin 1 → Fin (⟨2, ![1, N]⟩ : Shape).rank)) :
    broadcastInDim ⟨2, ![1, N]⟩ ![1] h₁ b = row (N := N) b := by
  funext j
  obtain ⟨u, q, rfl⟩ : ∃ (u : Fin 1) (q : Fin N), j = ix2 u q := ⟨j 0, j 1, eq_ix2 j⟩
  rw [Cert.LibColumns.broadcastInDim_b_1b_apply b h₁ u q]
  rfl

/-- One layer as the program spells it: the product, plus the bias vector laid out as a row and repeated down the rows. -/
theorem hostLayer_eq {M K N : ℕ} (h : FVec Ideal ⟨2, ![M, K]⟩ .f32) (W : FVec Ideal ⟨2, ![K, N]⟩ .f32)
    (b : FVec Ideal ⟨1, ![N]⟩ .f32)
    (h₁ : (⟨1, ![N]⟩ : Shape).BroadcastsInDim ⟨2, ![1, N]⟩ (![1] : Fin 1 → Fin (⟨2, ![1, N]⟩ : Shape).rank))
    (h₂ : (⟨2, ![1, N]⟩ : Shape).BroadcastsInDim ⟨2, ![M, N]⟩ (![0, 1] : Fin 2 → Fin (⟨2, ![M, N]⟩ : Shape).rank)) :
    addf (Host.dotGeneral (DotDims.plain M K N) none h W)
        (broadcastInDim ⟨2, ![M, N]⟩ ![0, 1] h₂ (broadcastInDim ⟨2, ![1, N]⟩ ![1] h₁ b))
      = affine (M := M) (K := K) (N := N) h W (row (N := N) b) := by
  rw [broadcastRow_eq b h₁]
  exact hostAffine_eq h W (row (N := N) b) h₂

section
variable (x0 : FVec Ideal S262144x72 .f32) (x1 : FVec Ideal S72x128 .f32) (x2 : FVec Ideal S128 .f32)
  (x3 : FVec Ideal S128x256 .f32) (x4 : FVec Ideal S256 .f32) (x5 : FVec Ideal S256x256 .f32) (x6 : FVec Ideal S256 .f32)
  (x7 : FVec Ideal S256x512 .f32) (x8 : FVec Ideal S512 .f32) (x9 : FVec Ideal S512x512 .f32) (x10 : FVec Ideal S512 .f32)
  (x11 : FVec Ideal S512x512 .f32) (x12 : FVec Ideal S512 .f32) (x13 : FVec Ideal S512x200 .f32) (x14 : FVec Ideal S200 .f32)
  (x15 : FVec Ideal S200x72 .f32)

/-- The first thirty operations are the encoder of the specification. -/
theorem encoder_eq :
    val_main_v29 (F := Ideal) x0 x1 x2 x3 x4 x5 x6 x7 x8 x9 x10 x11 x12 x13 x14
      = encode (M := 262144) (params x1 x2 x3 x4 x5 x6 x7 x8 x9 x10 x11 x12 x13 x14) x0 := by
  have e3 : val_main_v3 (F := Ideal) x0 x1 x2
      = affine (M := 262144) (K := 72) (N := 128) x0 x1 (row (N := 128) x2) :=
    hostLayer_eq (M := 262144) (K := 72) (N := 128) x0 x1 x2 _ _
  have e7 : val_main_v7 (F := Ideal) x0 x1 x2 x3 x4
      = affine (M := 262144) (K := 128) (N := 256) (val_main_v3 (F := Ideal) x0 x1 x2) x3 (row (N := 256) x4) :=
    hostLayer_eq (M := 262144) (K := 128) (N := 256) (val_main_v3 (F := Ideal) x0 x1 x2) x3 x4 _ _
  have e8 : val_main_v8 (F := Ideal) x0 x1 x2 x3 x4
      = clampBelow (M := 262144) (N := 256) 0 (val_main_v7 (F := Ideal) x0 x1 x2 x3 x4) :=
    hostRelu_eq (M := 262144) (N := 256) (val_main_v7 (F := Ideal) x0 x1 x2 x3 x4) _
  have e12 : val_main_v12 (F := Ideal) x0 x1 x2 x3 x4 x5 x6
      = affine (M := 262144) (K := 256) (N := 256) (val_main_v8 (F := Ideal) x0 x1 x2 x3 x4) x5 (row (N := 256) x6) :=
    hostLayer_eq (M := 262144) (K := 256) (N := 256) (val_main_v8 (F := Ideal) x0 x1 x2 x3 x4) x5 x6 _ _
  have e16 : val_main_v16 (F := Ideal) x0 x1 x2 x3 x4 x5 x6 x7 x8
      = affine (M := 262144) (K := 256) (N := 512) (val_main_v12 (F := Ideal) x0 x1 x2 x3 x4 x5 x6) x7 (row (N := 512) x8) :=
    hostLayer_eq (M := 262144) (K := 256) (N := 512) (val_main_v12 (F := Ideal) x0 x1 x2 x3 x4 x5 x6) x7 x8 _ _
  have e17 : val_main_v17 (F := Ideal) x0 x1 x2 x3 x4 x5 x6 x7 x8
      = clampBelow (M := 262144) (N := 512) 0 (val_main_v16 (F := Ideal) x0 x1 x2 x3 x4 x5 x6 x7 x8) :=
    hostRelu_eq (M := 262144) (N := 512) (val_main_v16 (F := Ideal) x0 x1 x2 x3 x4 x5 x6 x7 x8) _
  have e21 : val_main_v21 (F := Ideal) x0 x1 x2 x3 x4 x5 x6 x7 x8 x9 x10
      = affine (M := 262144) (K := 512) (N := 512) (val_main_v17 (F := Ideal) x0 x1 x2 x3 x4 x5 x6 x7 x8) x9 (row (N := 512) x10) :=
    hostLayer_eq (M := 262144) (K := 512) (N := 512) (val_main_v17 (F := Ideal) x0 x1 x2 x3 x4 x5 x6 x7 x8) x9 x10 _ _
  have e25 : val_main_v25 (F := Ideal) x0 x1 x2 x3 x4 x5 x6 x7 x8 x9 x10 x11 x12
      = affine (M := 262144) (K := 512) (N := 512) (val_main_v21 (F := Ideal) x0 x1 x2 x3 x4 x5 x6 x7 x8 x9 x10) x11
          (row (N := 512) x12) :=
    hostLayer_eq (M := 262144) (K := 512) (N := 512) (val_main_v21 (F := Ideal) x0 x1 x2 x3 x4 x5 x6 x7 x8 x9 x10) x11 x12 _ _
  have e29 : val_main_v29 (F := Ideal) x0 x1 x2 x3 x4 x5 x6 x7 x8 x9 x10 x11 x12 x13 x14
      = affine (M := 262144) (K := 512) (N := 200) (val_main_v25 (F := Ideal) x0 x1 x2 x3 x4 x5 x6 x7 x8 x9 x10 x11 x12) x13
          (row (N := 200) x14) :=
    hostLayer_eq (M := 262144) (K := 512) (N := 200) (val_main_v25 (F := Ideal) x0 x1 x2 x3 x4 x5 x6 x7 x8 x9 x10 x11 x12) x13 x14 _ _
  rw [e29, e25, e21, e17, e16, e12, e8, e7, e3]
  rfl

end

/-! ## The words, and a quotient by one -/

theorem div_one' (x : EReal) : Ideal.div x 1 = x := by
  have h := Ideal.div_coe (y := 1) (by norm_num) x
  rw [EReal.coe_one] at h
  rw [h]
  norm_num

/-! ## The tail, at one entry -/

section
variable (x0 : FVec Ideal S262144x72 .f32) (x1 : FVec Ideal S72x128 .f32) (x2 : FVec Ideal S128 .f32)
  (x3 : FVec Ideal S128x256 .f32) (x4 : FVec Ideal S256 .f32) (x5 : FVec Ideal S256x256 .f32) (x6 : FVec Ideal S256 .f32)
  (x7 : FVec Ideal S256x512 .f32) (x8 : FVec Ideal S512 .f32) (x9 : FVec Ideal S512x512 .f32) (x10 : FVec Ideal S512 .f32)
  (x11 : FVec Ideal S512x512 .f32) (x12 : FVec Ideal S512 .f32) (x13 : FVec Ideal S512x200 .f32) (x14 : FVec Ideal S200 .f32)
  (x15 : FVec Ideal S200x72 .f32)

/-- The sum of squares of the encoded row, repeated along the row. -/
theorem rowSquares_apply (p : Fin 262144) (q : Fin 72) :
    val_main_v38 (F := Ideal) x0 x1 x2 x3 x4 x5 x6 x7 x8 x9 x10 x11 x12 x13 x14 (ix2 p q)
      = ∑ k : Fin 200, val_main_v29 (F := Ideal) x0 x1 x2 x3 x4 x5 x6 x7 x8 x9 x10 x11 x12 x13 x14 (ix2 p k)
          * val_main_v29 (F := Ideal) x0 x1 x2 x3 x4 x5 x6 x7 x8 x9 x10 x11 x12 x13 x14 (ix2 p k) := by
  rw [val_main_v38_apply, val_main_v32_apply, val_main_v31_apply, val_main_cst_apply, Ideal.ofBits_def, word_zero, zero_add]
  refine Finset.sum_congr rfl fun k _ => ?_
  have e : idx_main_v31 (idx_main_v32 (idx_main_v38 (ix2 p q))) k = ix2 p k :=
    funext fun a => by match a with | ⟨0, _⟩ => rfl | ⟨1, _⟩ => rfl
  rw [e]
  rfl

/-- Twice the product of the encoded rows with the centres. -/
theorem cross_apply (p : Fin 262144) (q : Fin 72) :
    val_main_v37 (F := Ideal) x0 x1 x2 x3 x4 x5 x6 x7 x8 x9 x10 x11 x12 x13 x14 x15 (ix2 p q)
      = 2 * times (M := 262144) (K := 200) (N := 72)
          (val_main_v29 (F := Ideal) x0 x1 x2 x3 x4 x5 x6 x7 x8 x9 x10 x11 x12 x13 x14) x15 (ix2 p q) := by
  rw [val_main_v37_apply, val_main_v36_apply, val_main_cst_1_apply, val_main_v33_apply, Ideal.ofBits_def, word_two,
    Ideal.mulf_def, times_apply]
  refine congrArg (2 * ·) (Finset.sum_congr rfl fun k _ => ?_)
  have el : lidx_main_v33 (ix2 p q) k = ix2 p k :=
    funext fun a => by match a with | ⟨0, _⟩ => rfl | ⟨1, _⟩ => rfl
  have er : ridx_main_v33 (ix2 p q) k = ix2 k q :=
    funext fun a => by match a with | ⟨0, _⟩ => rfl | ⟨1, _⟩ => rfl
  rw [el, er]

/-- The sum of squares of the centres' column, repeated down the column. -/
theorem colSquares_apply (p : Fin 262144) (q : Fin 72) :
    val_main_v41 (F := Ideal) x15 (ix2 p q) = colNorms (K := 200) (N := 72) x15 (ix2 (0 : Fin 1) q) := by
  rw [val_main_v41_apply, val_main_v40_apply, val_main_v35_apply, val_main_cst_0_apply, Ideal.ofBits_def, word_zero, zero_add]
  refine Finset.sum_congr rfl fun k _ => ?_
  have e : idx_main_v35 (idx_main_v40 (idx_main_v41 (ix2 p q))) k = ix2 k q :=
    funext fun a => by match a with | ⟨0, _⟩ => rfl | ⟨1, _⟩ => rfl
  rw [e]
  rfl

/-- One plus the expanded squared distance. -/
theorem onePlusDist_apply (p : Fin 262144) (q : Fin 72) :
    val_main_v46 (F := Ideal) x0 x1 x2 x3 x4 x5 x6 x7 x8 x9 x10 x11 x12 x13 x14 x15 (ix2 p q)
      = 1 + sqDist (M := 262144) (K := 200) (N := 72)
          (val_main_v29 (F := Ideal) x0 x1 x2 x3 x4 x5 x6 x7 x8 x9 x10 x11 x12 x13 x14) x15 (ix2 p q) := by
  rw [val_main_v46_apply, val_main_v45_apply, val_main_cst_3_apply, val_main_v44_apply, val_main_v43_apply,
    val_main_cst_2_apply, val_main_v42_apply, val_main_v39_apply, rowSquares_apply, cross_apply, colSquares_apply,
    Ideal.ofBits_def, word_one, Ideal.hostDivf_def, div_one', Ideal.addf_def, Ideal.addf_def, Ideal.subf_def]
  rfl

/-- The kernel of one plus the squared distance. -/
theorem kernel_apply (p : Fin 262144) (q : Fin 72) :
    val_main_v48 (F := Ideal) x0 x1 x2 x3 x4 x5 x6 x7 x8 x9 x10 x11 x12 x13 x14 x15 (ix2 p q)
      = byPower (1 + sqDist (M := 262144) (K := 200) (N := 72)
          (val_main_v29 (F := Ideal) x0 x1 x2 x3 x4 x5 x6 x7 x8 x9 x10 x11 x12 x13 x14) x15 (ix2 p q)) := by
  rw [val_main_v48_apply, val_main_v47_apply, val_main_cst_4_apply, onePlusDist_apply, Ideal.ofBits_def, word_negOne,
    Ideal.hostPowf_def]
  rfl

/-- The sum of the kernel along the row, repeated along the row. -/
theorem kernelSum_apply (p : Fin 262144) (q : Fin 72) :
    val_main_v51 (F := Ideal) x0 x1 x2 x3 x4 x5 x6 x7 x8 x9 x10 x11 x12 x13 x14 x15 (ix2 p q)
      = ∑ c : Fin 72, byPower (1 + sqDist (M := 262144) (K := 200) (N := 72)
          (val_main_v29 (F := Ideal) x0 x1 x2 x3 x4 x5 x6 x7 x8 x9 x10 x11 x12 x13 x14) x15 (ix2 p c)) := by
  rw [val_main_v51_apply, val_main_v50_apply, val_main_v49_apply, val_main_cst_5_apply, Ideal.ofBits_def, word_zero, zero_add]
  refine Finset.sum_congr rfl fun c _ => ?_
  have e : idx_main_v49 (idx_main_v50 (idx_main_v51 (ix2 p q))) c = ix2 p c :=
    funext fun a => by match a with | ⟨0, _⟩ => rfl | ⟨1, _⟩ => rfl
  rw [e, kernel_apply]

end

/-! ## The reference is the specification -/

/-- The reference program computes the soft assignment of the encoded rows to the centres, with Student's kernel
    spelt as a power. -/
theorem reference_eq
    (x0 : FVec Ideal S262144x72 .f32) (x1 : FVec Ideal S72x128 .f32) (x2 : FVec Ideal S128 .f32) (x3 : FVec Ideal S128x256 .f32)
    (x4 : FVec Ideal S256 .f32) (x5 : FVec Ideal S256x256 .f32) (x6 : FVec Ideal S256 .f32) (x7 : FVec Ideal S256x512 .f32)
    (x8 : FVec Ideal S512 .f32) (x9 : FVec Ideal S512x512 .f32) (x10 : FVec Ideal S512 .f32) (x11 : FVec Ideal S512x512 .f32)
    (x12 : FVec Ideal S512 .f32) (x13 : FVec Ideal S512x200 .f32) (x14 : FVec Ideal S200 .f32) (x15 : FVec Ideal S200x72 .f32) :
    Cert.ReferenceIdeal.Read.val_main_v52 (F := Ideal) x0 x1 x2 x3 x4 x5 x6 x7 x8 x9 x10 x11 x12 x13 x14 x15
      = assign byPower (params x1 x2 x3 x4 x5 x6 x7 x8 x9 x10 x11 x12 x13 x14) x0 x15 := by
  funext i
  obtain ⟨p, q, rfl⟩ : ∃ (p : Fin 262144) (q : Fin 72), i = ix2 p q := ⟨i 0, i 1, eq_ix2 i⟩
  rw [val_main_v52_apply, kernel_apply, kernelSum_apply, Ideal.hostDivf_def, encoder_eq]
  unfold assign
  generalize encode (M := 262144) (params x1 x2 x3 x4 x5 x6 x7 x8 x9 x10 x11 x12 x13 x14) x0 = G
  rfl

end Cert.RefValue

end
-- ==== Proof.LibFiniteSums.lean ====
/-
  General laws for finite sums of REAL entries inside the extended reals.

  On the extended reals multiplication does not distribute over addition at the infinities, so a scale cannot be
  moved across a sum in general. For sums whose entries are all real it can: the sum of coerced reals is the coerced
  real sum, and there the ring laws apply. These are the laws behind folding a per-channel scale (a batch-norm
  scale, a gate) into the weights of a linear map, and behind packing two images side by side with block-diagonal
  weights: the off-diagonal blocks contribute 0 · (a real) = 0.
-/
import Mathlib.Data.EReal.Operations
import Mathlib.Algebra.BigOperators.Ring.Finset
import Mathlib.Algebra.BigOperators.Fin
import Mathlib.Algebra.BigOperators.Field
import Mathlib.Tactic.FinCases
import Mathlib.Tactic.Ring

noncomputable section

namespace Cert.LibFiniteSums

open scoped BigOperators

variable {ι κ : Type*}

/-- The sum of coerced reals is the coerced real sum. -/
theorem coe_sum (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of products of reals, inside the extended reals, is a real. -/
theorem coe_sum_mul (s : Finset ι) (x w : ι → ℝ) :
    (∑ i ∈ s, ((x i : ℝ) : EReal) * ((w i : ℝ) : EReal)) = ((∑ i ∈ s, x i * w i : ℝ) : EReal) := by
  rw [← coe_sum]; exact Finset.sum_congr rfl fun i _ => (EReal.coe_mul _ _).symm

/-- A scale applied AFTER a contraction of reals is the same contraction with the scale folded into the weights:
    (Σ_i x_i w_i) · s = Σ_i x_i (w_i s). -/
theorem sum_mul_scale (s : Finset ι) (x w : ι → ℝ) (c : ℝ) :
    (∑ i ∈ s, ((x i : ℝ) : EReal) * ((w i : ℝ) : EReal)) * ((c : ℝ) : EReal)
      = ∑ i ∈ s, ((x i : ℝ) : EReal) * (((w i : ℝ) : EReal) * ((c : ℝ) : EReal)) := by
  rw [coe_sum_mul, ← EReal.coe_mul, Finset.sum_mul]
  rw [show (∑ i ∈ s, ((x i : ℝ) : EReal) * (((w i : ℝ) : EReal) * ((c : ℝ) : EReal)))
      = ∑ i ∈ s, ((x i * (w i * c) : ℝ) : EReal) from
    Finset.sum_congr rfl fun i _ => by rw [← EReal.coe_mul, ← EReal.coe_mul], coe_sum]
  congr 1
  exact Finset.sum_congr rfl fun i _ => by ring

/-- The same with a bias added on both sides (the folded batch-norm form). -/
theorem sum_mul_scale_add (s : Finset ι) (x w : ι → ℝ) (c b : ℝ) :
    (∑ i ∈ s, ((x i : ℝ) : EReal) * ((w i : ℝ) : EReal)) * ((c : ℝ) : EReal) + ((b : ℝ) : EReal)
      = (∑ i ∈ s, ((x i : ℝ) : EReal) * (((w i : ℝ) : EReal) * ((c : ℝ) : EReal))) + ((b : ℝ) : EReal) := by
  rw [sum_mul_scale]

/-- A gate folded into a contraction: Σ_i (w_i · c · g_i) · z_i = (Σ_i (z_i g_i) w_i) · c. -/
theorem sum_gate_fold (s : Finset ι) (z g w : ι → ℝ) (c : ℝ) :
    (∑ i ∈ s, (((w i : ℝ) : EReal) * ((c : ℝ) : EReal) * ((g i : ℝ) : EReal)) * ((z i : ℝ) : EReal))
      = (∑ i ∈ s, (((z i : ℝ) : EReal) * ((g i : ℝ) : EReal)) * ((w i : ℝ) : EReal)) * ((c : ℝ) : EReal) := by
  rw [show (∑ i ∈ s, (((w i : ℝ) : EReal) * ((c : ℝ) : EReal) * ((g i : ℝ) : EReal)) * ((z i : ℝ) : EReal))
      = ∑ i ∈ s, ((w i * c * g i * z i : ℝ) : EReal) from
    Finset.sum_congr rfl fun i _ => by rw [← EReal.coe_mul, ← EReal.coe_mul, ← EReal.coe_mul], coe_sum]
  rw [show (∑ i ∈ s, (((z i : ℝ) : EReal) * ((g i : ℝ) : EReal)) * ((w i : ℝ) : EReal))
      = ∑ i ∈ s, ((z i * g i * w i : ℝ) : EReal) from
    Finset.sum_congr rfl fun i _ => by rw [← EReal.coe_mul, ← EReal.coe_mul], coe_sum, ← EReal.coe_mul, Finset.sum_mul]
  congr 1
  exact Finset.sum_congr rfl fun i _ => by ring

/-- Two images packed side by side with block-diagonal weights: contracting the pair index against the Kronecker
    delta leaves the one image's contraction. -/
theorem sum_block_diag [Fintype ι] (p : Fin 2) (x : Fin 2 → ι → ℝ) (w : ι → ℝ) :
    (∑ q : Fin 2, ∑ i : ι, ((x q i : ℝ) : EReal) * (((if q = p then (1 : ℝ) else 0 : ℝ) : EReal) * ((w i : ℝ) : EReal)))
      = ∑ i : ι, ((x p i : ℝ) : EReal) * ((w i : ℝ) : EReal) := by
  rw [show (∑ q : Fin 2, ∑ i : ι, ((x q i : ℝ) : EReal) * (((if q = p then (1 : ℝ) else 0 : ℝ) : EReal) * ((w i : ℝ) : EReal)))
      = ∑ q : Fin 2, ((∑ i : ι, x q i * ((if q = p then (1 : ℝ) else 0) * w i) : ℝ) : EReal) from
    Finset.sum_congr rfl fun q _ => by
      rw [← coe_sum]; exact Finset.sum_congr rfl fun i _ => by rw [← EReal.coe_mul, ← EReal.coe_mul]]
  rw [coe_sum, coe_sum_mul]
  congr 1
  rw [Fin.sum_univ_two]
  fin_cases p <;> simp

/-- The mean over a rectangle taken at once is the mean of the row means (all entries real):
    (Σ_h Σ_w z) / (H·W) = (Σ_h (Σ_w z) / W) / H. -/
theorem mean_of_row_means {H W : ℕ} (z : Fin H → Fin W → ℝ) (hH : (H : ℝ) ≠ 0) (hW : (W : ℝ) ≠ 0) :
    (∑ h, ∑ w, z h w) / ((H : ℝ) * (W : ℝ)) = (∑ h, (∑ w, z h w) / (W : ℝ)) / (H : ℝ) := by
  rw [← Finset.sum_div, div_div, mul_comm]

end Cert.LibFiniteSums

end
-- ==== Proof.RealEntries.lean ====
/-
  Student's kernel as a quotient and as a power give the same soft assignment when every entry is real.

  On the extended reals 1 / y and y ^ (−1) differ at y = 0 (the quotient is +∞, the power is 0) and at y = −∞, and
  agree at every nonzero real y, where both are the real reciprocal. The kernel is only ever evaluated at
  y = 1 + sqDist F C (p, c). When the entries of F and C are real numbers f and c,

      sqDist F C (p, c) = Σ_k f (p, k)² − 2 · Σ_k f (p, k) · c (k, c) + Σ_k c (k, c)² = Σ_k (f (p, k) − c (k, c))² ≥ 0,

  a real number, so y is a real number ≥ 1 and the two spellings agree there. Real entries are preserved by an
  affine layer (a finite sum of products of reals plus a real) and by a clamp below at 0 (the larger of two reals),
  hence by the encoder.
-/
import proofs.«153382_j28217935134950_2_alg».proof.Proof.Spec
import proofs.«153382_j28217935134950_2_alg».proof.Proof.LibFiniteSums

noncomputable section

namespace Cert.RealEntries

open Idealize.ShloMosaic Idealize.ShloMosaic.ValueIdx Cert.LibMatrixRows Cert.LibAffineRows Cert.SoftAssign
open scoped BigOperators

variable {M K N : ℕ}

/-! ## Real entries through the encoder -/

/-- A product plus a bias row, of matrices with real entries, has real entries. -/
theorem realEntries_affine {A : Mat M K} {W : Mat K N} {b : Mat 1 N} (hA : RealEntries A) (hW : RealEntries W)
    (hb : RealEntries b) : RealEntries (affine A W b) := by
  choose a ha using hA
  choose w hw using hW
  choose β hβ using hb
  intro i
  refine ⟨∑ k : Fin K, a (ix2 (i 0) k) * w (ix2 k (i 1)) + β (ix2 (0 : Fin 1) (i 1)), ?_⟩
  show (∑ k : Fin K, A (ix2 (i 0) k) * W (ix2 k (i 1))) + b (ix2 (0 : Fin 1) (i 1)) = _
  rw [EReal.coe_add, ← Cert.LibFiniteSums.coe_sum_mul, hβ]
  exact congrArg (· + ((β (ix2 (0 : Fin 1) (i 1)) : ℝ) : EReal)) (Finset.sum_congr rfl fun k _ => by rw [ha, hw])

/-- The larger of a real and 0 is a real. -/
theorem realEntries_clampBelow {A : Mat M N} (hA : RealEntries A) : RealEntries (clampBelow 0 A) := by
  intro i
  obtain ⟨r, hr⟩ := hA i
  refine ⟨max r 0, ?_⟩
  show max (A i) 0 = _
  rw [hr, ← EReal.coe_zero]
  exact (EReal.coe_strictMono.monotone.map_max (a := r) (b := 0)).symm

/-- The encoder of real parameters takes real entries to real entries. -/
theorem realEntries_encode {θ : Params} {X : Mat M 72} (hθ : θ.AllReal) (hX : RealEntries X) :
    RealEntries (encode θ X) := by
  obtain ⟨hW1, hb1, hW2, hb2, hW3, hb3, hW4, hb4, hW5, hb5, hW6, hb6, hW7, hb7⟩ := hθ
  exact realEntries_affine (realEntries_affine (realEntries_affine (realEntries_clampBelow (realEntries_affine
    (realEntries_affine (realEntries_clampBelow (realEntries_affine (realEntries_affine hX hW1 hb1) hW2 hb2))
      hW3 hb3) hW4 hb4)) hW5 hb5) hW6 hb6) hW7 hb7

/-! ## The expanded squared distance of real entries -/

/-- For real entries the expanded squared distance is a real number, and it is not negative: it is the sum of the
    squares of the differences. -/
theorem sqDist_real {F : Mat M K} {C : Mat K N} (hF : RealEntries F) (hC : RealEntries C)
    (i : (⟨2, ![M, N]⟩ : Shape).Idx) : ∃ s : ℝ, 0 ≤ s ∧ sqDist F C i = ((s : ℝ) : EReal) := by
  choose f hf using hF
  choose c hc using hC
  refine ⟨∑ k : Fin K, (f (ix2 (i 0) k) - c (ix2 k (i 1))) ^ 2, Finset.sum_nonneg fun k _ => sq_nonneg _, ?_⟩
  have e : (∑ k : Fin K, (f (ix2 (i 0) k) - c (ix2 k (i 1))) ^ 2)
      = (∑ k : Fin K, f (ix2 (i 0) k) * f (ix2 (i 0) k)) - 2 * (∑ k : Fin K, f (ix2 (i 0) k) * c (ix2 k (i 1)))
        + ∑ k : Fin K, c (ix2 k (i 1)) * c (ix2 k (i 1)) := by
    rw [Finset.mul_sum, ← Finset.sum_sub_distrib, ← Finset.sum_add_distrib]
    exact Finset.sum_congr rfl fun k _ => by ring
  have two : ((2 : ℝ) : EReal) = 2 := by norm_cast
  rw [e, EReal.coe_add, EReal.coe_sub, EReal.coe_mul, two, ← Cert.LibFiniteSums.coe_sum_mul,
    ← Cert.LibFiniteSums.coe_sum_mul, ← Cert.LibFiniteSums.coe_sum_mul]
  show (∑ k : Fin K, F (ix2 (i 0) k) * F (ix2 (i 0) k)) - 2 * (∑ k : Fin K, F (ix2 (i 0) k) * C (ix2 k (i 1)))
      + ∑ k : Fin K, C (ix2 k (i 1)) * C (ix2 k (i 1)) = _
  simp only [hf, hc]

/-! ## The two spellings of the kernel -/

/-- At a real number that is at least 1 the quotient 1 / y and the power y ^ (−1) are the same real. -/
theorem byQuotient_eq_byPower_of_real {s : ℝ} (hs : 0 ≤ s) :
    byQuotient (1 + ((s : ℝ) : EReal)) = byPower (1 + ((s : ℝ) : EReal)) := by
  have hy : (1 + s : ℝ) ≠ 0 := by linarith
  rw [← EReal.coe_one, ← EReal.coe_add]
  show Ideal.div ((1 : ℝ) : EReal) (((1 + s : ℝ)) : EReal) = Ideal.pow (((1 + s : ℝ)) : EReal) ((-1 : ℝ) : EReal)
  rw [Ideal.div_coe hy, Ideal.pow_coe_coe, ← EReal.coe_mul, one_mul, one_div]
  exact congrArg _ (Real.rpow_neg_one (1 + s)).symm

/-- The two spellings agree at every value one plus a squared distance of real entries takes. -/
theorem byQuotient_eq_byPower {F : Mat M K} {C : Mat K N} (hF : RealEntries F) (hC : RealEntries C)
    (i : (⟨2, ![M, N]⟩ : Shape).Idx) : byQuotient (1 + sqDist F C i) = byPower (1 + sqDist F C i) := by
  obtain ⟨s, hs, e⟩ := sqDist_real hF hC i
  rw [e]
  exact byQuotient_eq_byPower_of_real hs

/-- With real parameters, real inputs and real centres, the soft assignment with the kernel spelt as a quotient is
    the soft assignment with the kernel spelt as a power. -/
theorem assign_byQuotient_eq_byPower {M : ℕ} (θ : Params) (X : Mat M 72) (C : Mat 200 72)
    (hθ : θ.AllReal) (hX : RealEntries X) (hC : RealEntries C) :
    assign byQuotient θ X C = assign byPower θ X C :=
  soft_congr byQuotient byPower (encode θ X) C fun i => byQuotient_eq_byPower (realEntries_encode hθ hX) hC i

end Cert.RealEntries

end
-- ==== Proof.LibFiniteDecode.lean ====
/-
  "Every entry has absolute value below +∞" read as "every entry is a real".

  A precondition that an array is finite is printed as an all-reduce by "and" of the comparison |a| < +∞ against the
  word of +∞. On the extended reals |x| < +∞ says x is neither infinity, that is, x is a real. The lemma below takes one
  such conjunct — the all-reduce equal to 1 — to "every entry of `a` is real", for an array of any shape reduced over all
  its axes.
-/
import Idealize.ShloMosaic.PureOps.Ideal
import Idealize.ShloMosaic.Lib.ReduceAll
import Idealize.ShloMosaic.Lib.ValueIdx

noncomputable section

namespace Cert.LibFiniteDecode

open Idealize.ShloMosaic Idealize.ShloMosaic.ValueIdx

/-- The scalar shape has one index. -/
instance : Subsingleton (⟨0, ![]⟩ : Shape).Idx := ⟨fun a b => funext fun d => d.elim0⟩

/-- The word of +∞ denotes the top of the extended reals. -/
theorem ofBits_inf : Ideal.ofBits .f32 0x7F800000#32 = (⊤ : EReal) := by
  simp [Ideal.ofBits, Ideal.ieee]

/-- An extended real whose absolute value is below +∞ is a real. -/
theorem real_of_abs_lt (x : EReal) (h : max x (-x) < ⊤) : ∃ r : ℝ, x = ((r : ℝ) : EReal) := by
  induction x using EReal.rec with
  | bot => simp at h
  | coe r => exact ⟨r, rfl⟩
  | top => simp at h

/-- One conjunct of a finiteness precondition: an all-reduce by "and" of the comparison |a| < +∞ that is 1 makes every
    entry of `a` a real. -/
theorem real_of_all {s : Shape} {axes : List (Fin s.rank)} (a : FVec Ideal s .f32)
    (hb : (⟨0, ![]⟩ : Shape).BroadcastsInDim s ![]) (hred : s.ReducesTo axes ⟨0, ![]⟩) (hu : 0 < (⟨0, ![]⟩ : Shape).numel)
    (e : Host.reduce IntOp.andi (cmpf .olt (Host.absf a) (broadcastInDim s ![] hb (constant ⟨0, ![]⟩ .f32 0x7F800000#32)))
      (constantI ⟨0, ![]⟩ 1 1#1) hred hu ix0 = 1#1) (i : s.Idx) : ∃ r : ℝ, a i = ((r : ℝ) : EReal) := by
  have h := Host.reduce_andi_all _ _ hred hu ix0 e i
  have h' : Ideal.cmp .olt (max (a i) (-(a i))) (Ideal.ofBits .f32 0x7F800000#32) = 1#1 := h
  rw [ofBits_inf] at h'
  refine real_of_abs_lt (a i) ?_
  unfold Ideal.cmp at h'
  by_contra hn
  simp [hn] at h'

end Cert.LibFiniteDecode

end
-- ==== Proof.FiniteInputs.lean ====
/-
  The finiteness precondition read as "every input entry is a real number".

  The precondition is printed, per input array a, as the all-reduce by "and" of the comparison |a| < +∞ against the
  word of +∞, and the sixteen scalar results are joined by "and". The whole being 1 makes each of the sixteen
  all-reduces 1, and an all-reduce of |a| < +∞ that is 1 makes every entry of a a real number: on the extended reals
  |x| < +∞ excludes exactly the two infinities. The inputs are the data, the seven weight matrices each with its
  bias vector, and the centres; a bias vector laid out as one row has the entries of the vector.
-/
import proofs.«153382_j28217935134950_2_alg».proof.Proof.Gen.Pre_finite_inputs
import proofs.«153382_j28217935134950_2_alg».proof.Proof.LibFiniteDecode
import proofs.«153382_j28217935134950_2_alg».proof.Proof.Spec

noncomputable section

namespace Cert.FiniteInputs

open Idealize.ShloMosaic Idealize.ShloMosaic.ValueIdx Cert.LibMatrixRows Cert.SoftAssign Cert.Pre_finite_inputs
open Cert.LibFiniteDecode (real_of_all)

/-- The precondition being all ones makes every entry of every input a real number. -/
theorem real_of_pre
    (x0 : FVec Ideal S262144x72 .f32) (x1 : FVec Ideal S72x128 .f32) (x2 : FVec Ideal S128 .f32) (x3 : FVec Ideal S128x256 .f32)
    (x4 : FVec Ideal S256 .f32) (x5 : FVec Ideal S256x256 .f32) (x6 : FVec Ideal S256 .f32) (x7 : FVec Ideal S256x512 .f32)
    (x8 : FVec Ideal S512 .f32) (x9 : FVec Ideal S512x512 .f32) (x10 : FVec Ideal S512 .f32) (x11 : FVec Ideal S512x512 .f32)
    (x12 : FVec Ideal S512 .f32) (x13 : FVec Ideal S512x200 .f32) (x14 : FVec Ideal S200 .f32) (x15 : FVec Ideal S200x72 .f32)
    (h : Cert.Pre_finite_inputs.fn (F := Ideal) x0 x1 x2 x3 x4 x5 x6 x7 x8 x9 x10 x11 x12 x13 x14 x15 = fun _ => 1#1) :
    RealEntries x0 ∧ (params x1 x2 x3 x4 x5 x6 x7 x8 x9 x10 x11 x12 x13 x14).AllReal ∧ RealEntries x15 := by
  have e := congrFun h ix0
  unfold Cert.Pre_finite_inputs.fn Cert.Pre_finite_inputs.fn_part1 Cert.Pre_finite_inputs.fn_part2
    Cert.Pre_finite_inputs.fn_part3 Cert.Pre_finite_inputs.fn_part4 at e
  dsimp only at e
  simp only [andi, IntOp.andi_eq_one] at e
  obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := e
  exact ⟨real_of_all x0 _ _ _ h0,
    ⟨real_of_all x1 _ _ _ h1, RealEntries.row (real_of_all x2 _ _ _ h2),
     real_of_all x3 _ _ _ h3, RealEntries.row (real_of_all x4 _ _ _ h4),
     real_of_all x5 _ _ _ h5, RealEntries.row (real_of_all x6 _ _ _ h6),
     real_of_all x7 _ _ _ h7, RealEntries.row (real_of_all x8 _ _ _ h8),
     real_of_all x9 _ _ _ h9, RealEntries.row (real_of_all x10 _ _ _ h10),
     real_of_all x11 _ _ _ h11, RealEntries.row (real_of_all x12 _ _ _ h12),
     real_of_all x13 _ _ _ h13, RealEntries.row (real_of_all x14 _ _ _ h14)⟩,
    real_of_all x15 _ _ _ h15⟩

end Cert.FiniteInputs

end
-- ==== Proof.lean ====
/-
  An encoder of seven affine layers followed by a soft assignment of each encoded row to the columns of a matrix
  of centres, computed two ways, and the five claims that they agree.

  Both programs map a row x of the input to f = encode x (seven layers x ↦ x · W + b, a clamp below at 0 after the
  second and the fourth), form for every column c of the centres the squared distance ‖f − c‖² in expanded form
  ‖f‖² − 2 · ⟨f, c⟩ + ‖c‖², apply Student's kernel y ↦ 1 / y to 1 + ‖f − c‖², and divide by the sum of the kernel's
  values over the columns. One program takes the rows sixteen blocks of 16384 at a time, each block sixteen chunks
  of 1024 at a time, against resident parameters, narrowing the operands of every product to a shorter format (the
  identity on extended reals) and spelling the kernel as the quotient 1 / y; the other takes all rows at once and
  spells it as the power y ^ (−1).

  Every row of the result depends on the same row of the input only, so the chunked computation is the whole one;
  that needs no finiteness. The two spellings of the kernel differ on the extended reals at y = 0 and at y = −∞ and
  agree at every other y; under the precondition every input entry is real, so every encoded entry is real and
  y = 1 + Σ_k (f_k − c_k)² ≥ 1: there they agree. The word-level program and its idealization have the same text, so
  nothing is owed for that claim; the frames are the generated ones, the reference's being its run with the result
  dropped.
-/
import proofs.«153382_j28217935134950_2_alg».proof.Defs
import proofs.«153382_j28217935134950_2_alg».proof.Proof.Gen.Kernel
import proofs.«153382_j28217935134950_2_alg».proof.Proof.Gen.Kernel.Skeleton
import proofs.«153382_j28217935134950_2_alg».proof.Proof.Gen.Kernel.Loops
import proofs.«153382_j28217935134950_2_alg».proof.Proof.Gen.Kernel.Launch
import proofs.«153382_j28217935134950_2_alg».proof.Proof.Gen.Kernel.Points
import proofs.«153382_j28217935134950_2_alg».proof.Proof.Gen.Kernel.Frame
import proofs.«153382_j28217935134950_2_alg».proof.Proof.Gen.KernelIdeal
import proofs.«153382_j28217935134950_2_alg».proof.Proof.Gen.KernelIdeal.Skeleton
import proofs.«153382_j28217935134950_2_alg».proof.Proof.Gen.KernelIdeal.Loops
import proofs.«153382_j28217935134950_2_alg».proof.Proof.Gen.KernelIdeal.Launch
import proofs.«153382_j28217935134950_2_alg».proof.Proof.Gen.KernelIdeal.Points
import proofs.«153382_j28217935134950_2_alg».proof.Proof.Gen.KernelIdeal.Frame
import proofs.«153382_j28217935134950_2_alg».proof.Proof.Gen.ReferenceIdeal
import proofs.«153382_j28217935134950_2_alg».proof.Proof.Gen.Pre_finite_inputs
import proofs.«153382_j28217935134950_2_alg».proof.Proof.Gen.KernelIdeal.Value
import proofs.«153382_j28217935134950_2_alg».proof.Proof.Gen.ReferenceIdeal.Run
import proofs.«153382_j28217935134950_2_alg».proof.Proof.Gen.ReferenceIdeal.Read
import proofs.«153382_j28217935134950_2_alg».proof.Proof.KernelArray
import proofs.«153382_j28217935134950_2_alg».proof.Proof.RefValue
import proofs.«153382_j28217935134950_2_alg».proof.Proof.RealEntries
import proofs.«153382_j28217935134950_2_alg».proof.Proof.FiniteInputs
import Idealize.ShloMosaic.Adequacy
import Idealize.ShloMosaic.Init

noncomputable section

namespace Cert.Proof

open Idealize.ShloMosaic Idealize.ShloMosaic.TcCoe Idealize.SL.Sem Cert.SoftAssign

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the soft assignment of all the rows: the kernel's with Student's kernel as a quotient, the
    reference's with it as a power, and on real inputs the two are one function. -/
theorem algebraic : Cert.algebraic_KernelIdeal_ReferenceIdeal := by
  intro m ρ m' ρ' hpre hagree
  refine ⟨fun c => Cert.KernelArray.result m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15⟩ := hagree c
  rw [Cert.ReferenceIdeal.Read.val_main_v52_eq, Cert.RefValue.reference_eq,
    e0, e1, e2, e3, e4, e5, e6, e7, e8, e9, e10, e11, e12, e13, e14, e15]
  obtain ⟨h0, hθ, h15⟩ := Cert.FiniteInputs.real_of_pre _ _ _ _ _ _ _ _ _ _ _ _ _ _ _ _ (hpre c)
  exact (Cert.RealEntries.assign_byQuotient_eq_byPower _ _ _ hθ h0 h15).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
